-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S1000x1000 : Shape := ⟨2, ![1000, 1000]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1000x1000 : S_.BroadcastsInDim S1000x1000 (![] : Fin 0 → Fin S1000x1000.rank)
  reducesTo_S1000x1000_S_d0_1 : S1000x1000.ReducesTo [0, 1] S_

variable [Facts]

def fn {F : FTy → Type} [FloatOps F] (main_arg0 : FVec F S4096x512 .f32) (main_arg1 : IVec S4096 32) (main_arg2 : FVec F S1000x1000 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S1000x1000 .f32 := Host.absf main_arg2
  let main_cst_0 : FVec F S_ .f32 := constant S_ .f32 0x7F800000#32
  let main_v5 : FVec F S1000x1000 .f32 := broadcastInDim S1000x1000 ![] bcast_S_S1000x1000 main_cst_0
  let main_v6 : IVec S1000x1000 1 := cmpf .olt main_v4 main_v5
  let main_c_1 : IVec S_ 1 := constantI S_ 1 1#1
  let main_v7 : IVec S_ 1 := (fun x v => Host.reduce IntOp.andi x v reducesTo_S1000x1000_S_d0_1 h_S_) main_v6 main_c_1
  let main_v8 : IVec S_ 1 := andi main_v3 main_v7
  main_v8
-- ==== Kernel.lean ====
abbrev S4096x512 : Shape := ⟨2, ![4096, 512]⟩
abbrev S4096 : Shape := ⟨1, ![4096]⟩
abbrev S1000x1000 : Shape := ⟨2, ![1000, 1000]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S4096x4096x2 : Shape := ⟨3, ![4096, 4096, 2]⟩
abbrev S64x128 : Shape := ⟨2, ![64, 128]⟩
abbrev S512x512 : Shape := ⟨2, ![512, 512]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 41
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S1000x1000, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x512, .f32⟩
  | .hbm, ⟨12, _⟩ => ⟨S4096x512, .f32⟩
  | .hbm, ⟨13, _⟩ => ⟨S4096x512, .bf16⟩
  | .hbm, ⟨14, _⟩ => ⟨S4096x1, .i32⟩
  | .hbm, ⟨15, _⟩ => ⟨S1x4096, .i32⟩
  | .hbm, ⟨16, _⟩ => ⟨S_, .i32⟩
  | .hbm, ⟨17, _⟩ => ⟨S4096x1, .i32⟩
  | .hbm, ⟨18, _⟩ => ⟨S4096x1, .i1⟩
  | .hbm, ⟨19, _⟩ => ⟨S_, .i32⟩
  | .hbm, ⟨20, _⟩ => ⟨S4096x1, .i32⟩
  | .hbm, ⟨21, _⟩ => ⟨S4096x1, .i32⟩
  | .hbm, ⟨22, _⟩ => ⟨S4096x1, .i32⟩
  | .hbm, ⟨23, _⟩ => ⟨S_, .i32⟩
  | .hbm, ⟨24, _⟩ => ⟨S1x4096, .i32⟩
  | .hbm, ⟨25, _⟩ => ⟨S1x4096, .i1⟩
  | .hbm, ⟨26, _⟩ => ⟨S_, .i32⟩
  | .hbm, ⟨27, _⟩ => ⟨S1x4096, .i32⟩
  | .hbm, ⟨28, _⟩ => ⟨S1x4096, .i32⟩
  | .hbm, ⟨29, _⟩ => ⟨S1x4096, .i32⟩
  | .hbm, ⟨30, _⟩ => ⟨S4096x4096, .i32⟩
  | .hbm, ⟨31, _⟩ => ⟨S4096x4096, .i32⟩
  | .hbm, ⟨32, _⟩ => ⟨S4096x4096x1, .i32⟩
  | .hbm, ⟨33, _⟩ => ⟨S4096x4096x1, .i32⟩
  | .hbm, ⟨34, _⟩ => ⟨S4096x4096x2, .i32⟩
  | .hbm, ⟨35, _⟩ => ⟨S4096x4096, .f32⟩
  | .hbm, ⟨36, _⟩ => ⟨S64x128, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S8x128, .f32⟩
  | .local _ .vmem, ⟨7, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bitsLt_bf16_f32 : FTy.bits .bf16 < FTy.bits .f32
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S4096x4096_S4096x4096x1_0_1 : S4096x4096.BroadcastsInDim S4096x4096x1 (![0, 1] : Fin 2 → Fin S4096x4096x1.rank)
  concatenates_S4096x4096x1_S4096x4096x1_S4096x4096x2_d2 : Shape.Concatenates [S4096x4096x1, S4096x4096x1] S4096x4096x2 2
  inb_S8x128_S8x128_0_0 : ∀ a, (![0, 0] : Fin 2 → Nat) a + S8x128.size a ≤ S8x128.size a
  h_S8x128 : 0 < S8x128.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  natLt_1_32 : 1 < 32
  reduces_S512x512_S512 : S512x512.Reduces [1] S512
  shapeCasts_S512_S512x1 : S512.ShapeCasts S512x1
  reduces_S512x1_S1 : S512x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  reducesTo_S64x128_S_d0_1 : S64x128.ReducesTo [0, 1] S_
  gather_S1000x1000_S4096x4096x2_S4096x4096_n_01_n_n_01_2_11_wf : GatherDims.WF S1000x1000 S4096x4096x2 S4096x4096 [] [0, 1] [] [0, 1] [] 2 ![1, 1]
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .bf16 = 32 ∨ (Rect.block (s := S4096x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S64x128.size a
  hwx0_3 : ∀ i : grid0.Coords, EltTy.bits .f32 = 32 ∨ (Rect.block (s := S64x128) S8x128.size (cc0_transform_3 i) (hinb0_3 i)).WholeWords (EltTy.packing .f32)

variable [Facts₀]

def gather_S1000x1000_S4096x4096x2_S4096x4096_n_01_n_n_01_2_11 : GatherDims S1000x1000 S4096x4096x2 S4096x4096 where
  offsetDims := []
  collapsedSliceDims := [0, 1]
  operandBatchingDims := []
  startIndicesBatchingDims := []
  startIndexMap := [0, 1]
  indexVectorDim := 2
  sliceSizes := ![1, 1]
  wf := gather_S1000x1000_S4096x4096x2_S4096x4096_n_01_n_n_01_2_11_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v5) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S1000x1000 : Shape := ⟨2, ![1000, 1000]⟩
abbrev S_ : Shape := ⟨0, ![]⟩
abbrev S4096x1 : Shape := ⟨2, ![4096, 1]⟩
abbrev S512x4096 : Shape := ⟨2, ![512, 4096]⟩
abbrev S4096x4096 : Shape := ⟨2, ![4096, 4096]⟩
abbrev S1x4096 : Shape := ⟨2, ![1, 4096]⟩
abbrev S4096x4096x1 : Shape := ⟨3, ![4096, 4096, 1]⟩
abbrev S4096x4096x2 : Shape := ⟨3, ![4096, 4096, 2]⟩

abbrev nBuf : Space → Nat
  | .hbm => 55
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S1000x1000, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x512, .f32⟩
  | .hbm, ⟨12, _⟩ => ⟨S4096x512, .f32⟩
  | .hbm, ⟨13, _⟩ => ⟨S512x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x1, .i32⟩
  | .hbm, ⟨19, _⟩ => ⟨S1x4096, .i32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S_, .i32⟩
  | .hbm, ⟨24, _⟩ => ⟨S4096x1, .i32⟩
  | .hbm, ⟨25, _⟩ => ⟨S4096x1, .i32⟩
  | .hbm, ⟨26, _⟩ => ⟨S4096x1, .i32⟩
  | .hbm, ⟨27, _⟩ => ⟨S_, .i32⟩
  | .hbm, ⟨28, _⟩ => ⟨S1x4096, .i32⟩
  | .hbm, ⟨29, _⟩ => ⟨S1x4096, .i1⟩
  | .hbm, ⟨30, _⟩ => ⟨S_, .i32⟩
  | .hbm, ⟨31, _⟩ => ⟨S1x4096, .i32⟩
  | .hbm, ⟨32, _⟩ => ⟨S1x4096, .i32⟩
  | .hbm, ⟨33, _⟩ => ⟨S1x4096, .i32⟩
  | .hbm, ⟨34, _⟩ => ⟨S4096x4096, .i32⟩
  | .hbm, ⟨35, _⟩ => ⟨S4096x4096, .i32⟩
  | .hbm, ⟨36, _⟩ => ⟨S4096x4096x1, .i32⟩
  | .hbm, ⟨37, _⟩ => ⟨S4096x4096x1, .i32⟩
  | .hbm, ⟨38, _⟩ => ⟨S4096x4096x2, .i32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .i1⟩
  | .hbm, ⟨43, _⟩ => ⟨S_, .f32⟩
  | .hbm, ⟨44, _⟩ => ⟨S4096x4096, .f32⟩
  | .hbm, ⟨45, _⟩ => ⟨S4096x4096, .i1⟩
  | .hbm, ⟨46, _⟩ => ⟨S4096x4096, .i1⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S4096x4096_S4096x4096x1_0_1 : S4096x4096.BroadcastsInDim S4096x4096x1 (![0, 1] : Fin 2 → Fin S4096x4096x1.rank)
  concatenates_S4096x4096x1_S4096x4096x1_S4096x4096x2_d2 : Shape.Concatenates [S4096x4096x1, S4096x4096x1] S4096x4096x2 2
  reducesTo_S4096x4096_S_d0_1 : S4096x4096.ReducesTo [0, 1] S_
  dot_S4096x512_S512x4096_S4096x4096_1_0_0_1_n_n_wf : DotDims.WF S4096x512 S512x4096 S4096x4096 [1] [0] [0] [1] [] []
  gather_S1000x1000_S4096x4096x2_S4096x4096_n_01_n_n_01_2_11_wf : GatherDims.WF S1000x1000 S4096x4096x2 S4096x4096 [] [0, 1] [] [0, 1] [] 2 ![1, 1]

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def gather_S1000x1000_S4096x4096x2_S4096x4096_n_01_n_n_01_2_11 : GatherDims S1000x1000 S4096x4096x2 S4096x4096 where
  offsetDims := []
  collapsedSliceDims := [0, 1]
  operandBatchingDims := []
  startIndicesBatchingDims := []
  startIndexMap := [0, 1]
  indexVectorDim := 2
  sliceSizes := ![1, 1]
  wf := gather_S1000x1000_S4096x4096x2_S4096x4096_n_01_n_n_01_2_11_wf

class Facts : Prop extends Facts₀ where

variable [Facts]
-- ==== Proof.KwEntry.lean ====
/-
  What the kernel region finds when it is entered. Before the region @main normalises the rows of the
  embedding matrix (a row divided by the larger of its Euclidean norm and a small constant) and gathers the
  class-distance table at the pairs of labels; the region's three input windows read blocks of those two arrays
  (two of the windows read row blocks of the SAME normalised matrix). Here: each buffer's contents at the region's
  entry as the host operations' composed value of the launch memory, and a window's block at a grid point read off
  its array at those contents.
-/
import proofs.«146862_j47442208751734_2_alg».proof.Proof.Gen.Kernel.Launch
import proofs.«146862_j47442208751734_2_alg».proof.Proof.Gen.Kernel.Skeleton
import proofs.«146862_j47442208751734_2_alg».proof.Proof.Gen.Kernel.Points
import Idealize.ShloMosaic.Lib.Pipeline.FrameBody
import Idealize.ShloMosaic.Lib.Pipeline.FrameSuffix

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- Every device buffer of core `c` after the host operations that precede the region, run from the launch
    memory: the row norms and the normalised rows, then the label pairs and the gathered class distances. -/
abbrev V0 (c : Dev nD) : Valuation τ sig (Elt F) :=
  StableHlo.after (List.flatten [hostOps0, hostOps0_1]) (fun b => m (c, b))

/-- The same, at a TensorCore reference: what the region finds in buffer `b`. -/
abbrev V (c : Dev nD) (b : Ref sig .tc) : Buf (Elt F) ((c : Thread nD τ).loc b) := V0 m c (Proc.devRef .tc b)

/-- Window `w`'s block at grid point `t`, read off its array as the region finds it: for the two row-block
    windows 512 rows of the normalised matrix (rows `512·i` onwards for window 0, `512·j` onwards for window 1,
    at the point `t = 8·i + j`), for window 2 the 512×512 tile `(i, j)` of the class distances. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.Kernel.Hand

end
-- ==== Proof.KwLaunch.lean ====
/-
  The launch of the kernel: @main is host lines, one region, host lines. Two of the region's four windows read
  row blocks of ONE array (the row-normalised embeddings), so the array is shared between them: at the region's
  entry each of the two windows takes half of it, which is enough to read it, and the halves are never rejoined
  because nothing after the region touches that array. The lines after the region read only the region's result
  array and write four buffers that bypass the region; they are run from the region's exit within those buffers.
  The conclusion names what every bypassing buffer holds at the end: the closing lines' value of the result array
  as the grid left it — in particular the argument arrays as launched and the scalar result.
-/
import proofs.«146862_j47442208751734_2_alg».proof.Proof.KwEntry
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines that normalise the rows and gather the class distances, the region, and the host
    lines that total the region's result and divide by the number of pairs. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- The three distinct arrays behind the four windows. -/
theorem arrImage : Finset.univ.image (Pipeline.arrRef spec0) = ([main_v5, main_v23, main_v24] : List (Ref sig .tc)).toFinset := by decide

/-! ## The arrays at the region's entry: one array, two readers -/

/-- The distinct arrays conjoined one by one. -/
theorem bigSep_arrs {M : Type} [URA M] (Φ : Ref sig .tc → sProp M) :
    bigSep (Finset.univ.image (Pipeline.arrRef spec0)) Φ = iprop(Φ main_v5 ∗ Φ main_v23 ∗ Φ main_v24) :=
  bigSep_eq_bigSepL_of_eq [main_v5, main_v23, main_v24] arrImage (by decide) Φ

/-- The row-normalised matrix is read by two windows: each holds one half of it. The tile of class distances and
    the result array are each held whole by their one window. -/
theorem arrays_of_bufs (c : Dev nD) (dat : Dat τ (Elt F) Unit ℕ (UR sig nD τ) ℕ cfg0 c)
    (hq0 : dat.q 0 = fullShare.left) (hq1 : dat.q 1 = fullShare.right) (hq2 : dat.q 2 = fullShare)
    (hA : ∀ w, dat.A w = V m c (Pipeline.arrRef spec0 w)) :
    (Pipeline.arrBufs spec0 c (V m c) : sProp 𝕄) ⊢ dat.arrays (dat.arrAt · 0) := by
  have hs0 : dat.share 0 = fullShare.left := by unfold Dat.share; rw [if_neg (by decide)]; exact hq0
  have hs1 : dat.share 1 = fullShare.right := by unfold Dat.share; rw [if_neg (by decide)]; exact hq1
  have hs2 : dat.share 2 = fullShare := by unfold Dat.share; rw [if_neg (by decide)]; exact hq2
  have hs3 : dat.share 3 = fullShare := by unfold Dat.share; rw [if_pos (by decide)]
  unfold Pipeline.arrBufs Dat.arrays
  rw [bigSep_arrs, bigSep_W0]
  rw [(arr_whole0 0).set_eq_univ, (arr_whole0 2).set_eq_univ, (arr_whole0 3).set_eq_univ, hs0, hs1, hs2, hs3]
  beta_reduce
  rw [show dat.arrAt 0 0 = dat.A 0 from rfl, show dat.arrAt 1 0 = dat.A 1 from rfl, show dat.arrAt 2 0 = dat.A 2 from rfl,
    show dat.arrAt 3 0 = dat.A 3 from rfl, hA 0, hA 1, hA 2, hA 3]
  iintro ⟨H5, H23, H24⟩
  ihave H5' := (pointsTo_share (PosShare.mem_left_op_right fullShare)).1 $$ H5
  icases H5' with ⟨H5l, H5r⟩
  isplitl [H5l]; · iexact H5l
  isplitl [H5r]; · iexact H5r
  isplitl [H23]; · iexact H23
  iexact H24

/-! ## The host lines after the region -/

/-- The buffers the closing host lines run within: the result array (which they read) and the buffers that
    bypass the region (among them the four they write). The two input arrays stay with their windows. -/
def tailSet : Finset (DevRef τ sig) :=
  (insert main_v24 (Pipeline.restRefs sig spec0)).map ⟨Proc.devRef (sig := sig) .tc, Proc.devRef_injective _⟩

theorem mem_tailSet (b : Ref sig .tc) (h : b ∈ insert main_v24 (Pipeline.restRefs sig spec0)) :
    Proc.devRef (τ := τ) .tc b ∈ (tailSet : Finset (DevRef τ sig)) := Finset.mem_map_of_mem _ h

theorem main_v24_not_rest : main_v24 ∉ Pipeline.restRefs sig spec0 := fun h =>
  (Finset.mem_sdiff.mp h).2 (Finset.mem_image.mpr ⟨3, Finset.mem_univ _, rfl⟩)

/-- Those buffers held at a valuation: the result array, and the bypassing buffers. -/
theorem held_tailSet (c : Dev nD) (Wv : Valuation τ sig (Elt F)) :
    (StableHlo.held (c.tc : Thread nD τ) tailSet Wv : sProp 𝕄)
      = iprop((((c.tc : Thread nD τ).loc main_v24) ↦{fullShare} Wv (Proc.devRef .tc main_v24))
          ∗ Pipeline.unscopedRest spec0 c (fun b => Wv (Proc.devRef .tc b))) := by
  classical
  unfold StableHlo.held tailSet Pipeline.unscopedRest
  rw [bigSep_map, bigSep_insert main_v24_not_rest]
  rfl

/-- A valuation with the result array replaced: what the buffers hold when the region is left, the result array
    at what the grid accumulated, every other buffer as the region found it. -/
def Wt (c : Dev nD) (Vv : Valuation τ sig (Elt F)) (out : Buf (Elt F) ((c.tc : Thread nD τ).loc main_v24)) : Valuation τ sig (Elt F) :=
  Function.update Vv (Proc.devRef .tc main_v24) out

theorem Wt_out (c : Dev nD) (Vv : Valuation τ sig (Elt F)) (out : Buf (Elt F) ((c.tc : Thread nD τ).loc main_v24)) :
    Wt c Vv out (Proc.devRef .tc main_v24) = out := Function.update_self ..

theorem Wt_rest (c : Dev nD) (Vv : Valuation τ sig (Elt F)) (out : Buf (Elt F) ((c.tc : Thread nD τ).loc main_v24)) (b : Ref sig .tc) (hb : b ≠ main_v24) :
    Wt c Vv out (Proc.devRef .tc b) = Vv (Proc.devRef .tc b) := Function.update_of_ne (StableHlo.devRef_ne_of_ne hb) ..

theorem rest_Wt (c : Dev nD) (Vv : Valuation τ sig (Elt F)) (out : Buf (Elt F) ((c.tc : Thread nD τ).loc main_v24)) :
    (Pipeline.unscopedRest spec0 c (fun b => Wt c Vv out (Proc.devRef .tc b)) : sProp 𝕄)
      = Pipeline.unscopedRest spec0 c (fun b => Vv (Proc.devRef .tc b)) := by
  unfold Pipeline.unscopedRest
  exact bigSep_congr fun b hb => by beta_reduce; rw [Wt_rest c Vv out b (fun e => main_v24_not_rest (e ▸ hb))]

theorem tail_sub : ∀ op ∈ (hostOps1 : List (HloOp τ sig (Elt F))), op.bufs ⊆ tailSet := by
  intro op hop
  simp only [hostOps1, List.mem_cons, List.mem_nil_iff, or_false] at hop
  rcases hop with rfl | rfl | rfl | rfl
  all_goals
    simp only [StableHlo.nullary_bufs, StableHlo.binary_bufs, Finset.insert_subset_iff, Finset.singleton_subset_iff]
    repeat' apply And.intro
    all_goals
      first
      | exact mem_tailSet _ (Finset.mem_insert_self _ _)
      | exact mem_tailSet _ (Finset.mem_insert_of_mem (Pipeline.mem_restRefs_of _ (by decide) (by decide)))

theorem tail_keeps : ∀ op ∈ (hostOps1 : List (HloOp τ sig (Elt F))), Proc.devRef .tc main_v24 ∉ op.writes := by
  intro op hop
  simp only [hostOps1, List.mem_cons, List.mem_nil_iff, or_false] at hop
  rcases hop with rfl | rfl | rfl | rfl
  all_goals
    simp only [StableHlo.nullary_writes, StableHlo.binary_writes, Finset.mem_singleton]
    exact StableHlo.devRef_ne_of_ne (by decide)

theorem held_exit (c : Dev nD) (Vv : Valuation τ sig (Elt F)) (out : Buf (Elt F) ((c.tc : Thread nD τ).loc main_v24)) :
    (StableHlo.held (c.tc : Thread nD τ) tailSet (Wt c Vv out) : sProp 𝕄)
      = iprop((((c.tc : Thread nD τ).loc main_v24) ↦{fullShare} out) ∗ Pipeline.unscopedRest spec0 c (fun b => Vv (Proc.devRef .tc b))) := by
  rw [held_tailSet, Wt_out, rest_Wt]

theorem held_end (c : Dev nD) (Vv : Valuation τ sig (Elt F)) (out : Buf (Elt F) ((c.tc : Thread nD τ).loc main_v24)) :
    (StableHlo.held (c.tc : Thread nD τ) tailSet (StableHlo.after hostOps1 (Wt c Vv out)) : sProp 𝕄)
      = iprop((((c.tc : Thread nD τ).loc main_v24) ↦{fullShare} out)
          ∗ Pipeline.unscopedRest spec0 c (fun b => StableHlo.after hostOps1 (Wt c Vv out) (Proc.devRef .tc b))) := by
  rw [held_tailSet, StableHlo.after_of_forall_not_mem _ _ tail_keeps, Wt_out]

set_option backward.isDefEq.respectTransparency.types false in
/-- The closing host lines, run from the region's exit: they total the result array and divide, reading the
    result array and writing four bypassing buffers. -/
theorem tail_run (𝒱₀ : Variants) (c : Dev nD) (Vv : Valuation τ sig (Elt F)) (out : Buf (Elt F) ((c.tc : Thread nD τ).loc main_v24)) (Q' : PUnit → sProp 𝕄) :
    iprop((iprop((((c.tc : Thread nD τ).loc main_v24) ↦{fullShare} out)
              ∗ Pipeline.unscopedRest spec0 c (fun b => StableHlo.after hostOps1 (Wt c Vv out) (Proc.devRef .tc b))) -∗ Q' ⟨⟩)
        ∗ boundary (c.tc : Thread nD τ) ∗ (((c.tc : Thread nD τ).loc main_v24) ↦{fullShare} out)
        ∗ Pipeline.unscopedRest spec0 c (fun b => Vv (Proc.devRef .tc b)))
      ⊢ wp frame (wpE (Pipeline.defs (fun q => Cfg.toPCfg (Val := Elt F) (cfgs q)) defs₀) (Variants.lift 𝒱₀) (c.tc : Thread nD τ) none) Set.univ
          (Pipeline.chain [StableHlo.seq hostOps1]) Q' := by
  classical
  simp only [Pipeline.chain_cons, Pipeline.chain_nil]
  iintro ⟨Hk, Hbd, H24, HR⟩
  ihave Hh := (Entails.of_eq (held_exit c Vv out).symm) $$ [H24 HR]
  · isplitl [H24]; · iexact H24
    iexact HR
  iapply (StableHlo.wp_seq (defs := Pipeline.defs (fun q => Cfg.toPCfg (Val := Elt F) (cfgs q)) defs₀) (Variants.lift 𝒱₀) none Set.univ c tailSet
    (fun _ => pure ⟨⟩) (K := Q') hostOps1 tail_sub (List.forall_iff_forall_mem.mp hostOps1_fresh) (Wt c Vv out)) $$ [Hbd Hh]
  · isplitl [Hbd]; · iexact Hbd
    iexact Hh
  iintro ⟨Hbd, Hh⟩
  rw [wp_pure]
  imodintro
  iapply Hk
  iapply (Entails.of_eq (held_end c Vv out))
  iexact Hh

/-! ## The run -/

set_option backward.isDefEq.respectTransparency.types false in
/-- Every weakly fair execution of @main terminates, and at the end every buffer that bypasses the region holds
    what the closing host lines compute from the result array as the grid left it, the other buffers as the
    region found them. For any proof data of the pipeline whose arrays are the entry contents, whose two
    row-block windows each hold half of their common array, whose invariant is the scoped rest and the generator
    register, and whose body obligation holds. -/
theorem run_shared (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right) (hq2 : ∀ c, (dats 0 c).q 2 = fullShare)
    (howed : ∀ c t, (dats 0 c).owed t = 0)
    (hA : ∀ c w, (dats 0 c).A w = V m c (Pipeline.arrRef spec0 w))
    (hΦ : ∀ c t, (dats 0 c).Φ t = Pipeline.ΦA spec0 c) :
    θ_run defs (onTc (τ := τ) (main (F := F))) (s₀ m ρ) (fun r => ∀ c : Dev nD,
      ∀ b ∈ Pipeline.restRefs sig spec0, r.2.mem ((c.tc : Thread nD τ).loc b)
        = StableHlo.after hostOps1 (Wt c (V0 m c) ((dats 0 c).arrAt 3 cfg0.N)) (Proc.devRef .tc b)) := by
  classical
  have hs3 : ∀ c, (dats 0 c).share 3 = fullShare := fun c => by unfold Dat.share; rw [if_pos (by decide)]
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (dats 0 c) (hq0 c) (hq1 c) (hq2 c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (fun b => StableHlo.after hostOps1 (Wt c (V0 m c) ((dats 0 c).arrAt 3 cfg0.N)) (Proc.devRef .tc b)))
    (hX := fun c => by
      rw [Pipeline.unscopedRestP_none]
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr]; · iexact Hr
      iexact Hp)
    (hout := fun c => by
      rw [hΦ, Pipeline.ownSems0_none]; unfold Pipeline.ΦA
      iintro ⟨Hr, Hp⟩
      isplitl [Hp]; · iexact Hp
      isplitr; · iempintro
      iexact Hr)
    (htail := fun c Q' => by
      unfold Dat.arrays
      rw [bigSep_W0, (arr_whole0 3).set_eq_univ, hs3 c]
      refine BIBase.Entails.trans ?_ (tail_run Variants.none c (V0 m c) ((dats 0 c).arrAt 3 cfg0.N) Q')
      iintro ⟨Hk, Hbd, ⟨H0, H1, H2, H3⟩, HZ⟩
      isplitl [Hk H0 H1 H2]
      · iintro ⟨H3, HZ'⟩
        iapply Hk
        isplitr [HZ']
        · isplitl [H0]; · iexact H0
          isplitl [H1]; · iexact H1
          isplitl [H2]; · iexact H2
          iexact H3
        · iexact HZ'
      isplitl [Hbd]; · iexact Hbd
      isplitl [H3]; · iexact H3
      iexact HZ)
    (QY := fun c s => ∀ b ∈ Pipeline.restRefs sig spec0, s.mem ((c.tc : Thread nD τ).loc b)
        = StableHlo.after hostOps1 (Wt c (V0 m c) ((dats 0 c).arrAt 3 cfg0.N)) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => StableHlo.after hostOps1 (Wt c (V0 m c) ((dats 0 c).arrAt 3 cfg0.N)) (Proc.devRef .tc b)) s')
      isplitl [HU] <;> iassumption)
    (hQ := fun s h c => (h c).2.2)

end Cert.Kernel.Hand

end
-- ==== Proof.KwBody.lean ====
/-
  The kernel body's control, in closed form, and the names the body's runs are stated over.

  The body branches once, on the second grid coordinate being zero: there it clears the running output
  block before adding the tile's contribution, elsewhere it adds to what the block already holds. Over the
  8 x 8 grid, at the point t = 8 i + j, the branch is taken exactly when t is a multiple of 8.
-/
import proofs.«146862_j47442208751734_2_alg».proof.Proof.KwEntry
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## The branch condition -/

/-- The body's branch condition as a function of the grid coordinates: the second coordinate, as a 32-bit
    word, compared with zero, the one-bit answer widened and compared with zero again. -/
abbrev cond0 (i : grid0.Coords) : Prop :=
  (Scalar.cmpi .ne (Scalar.extui (Scalar.cmpi .eq (BitVec.ofNat 32 (i 1).val) 0#32)) 0#32) = 1#1

/-- It holds exactly at the first point of each row of the grid: the points divisible by 8. Decided
    over the 64 points. -/
theorem hcond0 : ∀ t : Fin cfg0.N, cond0 (grid0.coords t) ↔ t.val % 8 = 0 :=
  (by decide +kernel : ∀ t : Fin grid0.N, cond0 (grid0.coords t) ↔ t.val % 8 = 0)

/-! ## The buffers the body is called with -/

/-- One staging buffer of the output window: contents of the output block are stated through its view
    (any whole 8 x 128 view would do). -/
abbrev VO3 : View sig .tc .vmem S8x128 .f32 := (Memref.whole cc0_stg3_0 : Memref sig .tc .vmem S8x128 .f32).view

/-- Each window's current staging buffer at point `t`, as the body is called with it, and its wholeness. -/
abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x128 .f32 := win0_3.stage (cfg0.slots t 3)
abbrev hs3 (t : Fin cfg0.N) : (ms3 t).IsWhole := hstage0_3 ((cfg0.slots t 3).cast nbuf0_3)

end Cert.Kernel.Hand

end
-- ==== Proof.KwRunA.lean ====
/-
  The body's run at a point where the branch is taken (second grid coordinate zero).

  There the body first overwrites the whole output block with zeros, then loads its three input blocks,
  forms the tile's contribution, and stores back the block it has just cleared plus that contribution.
  The statement: on whole buffers, the inputs at given contents and the output at anything, the body runs
  to its continuation with the inputs unchanged and the output holding a list of written pieces; the
  list is the witness the run produces.
-/
import proofs.«146862_j47442208751734_2_alg».proof.Proof.KwBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output buffer (last store first) when the branch is taken,
    with the proof that from whole buffers — the three inputs at `x0`, `x1`, `x2`, the output at any
    contents — the body runs to a continuation that receives the inputs as they were and the output with
    those pieces written. -/
noncomputable def runA (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S8x128 .f32) (harg5 : arg5.IsWhole) (hc0 : cond0 i)
    (x0 : Vec F S512x512 .bf16) (x1 : Vec F S512x512 .bf16) (x2 : Vec F S512x512 .f32) :
    { L : List (View.Piece (Elt F) S8x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__kernel i arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.KwRunB.lean ====
/-
  The body's run at a point where the branch is not taken (second grid coordinate nonzero).

  There the body loads its three input blocks, forms the tile's contribution, and stores back what the
  output block already holds plus that contribution. The statement: on whole buffers, the inputs at given
  contents and the output at its running contents, the body runs to its continuation with the inputs
  unchanged and the output holding a list of written pieces; the list is the witness the run produces.
-/
import proofs.«146862_j47442208751734_2_alg».proof.Proof.KwRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's store leaves in the output buffer when the branch is not taken, with the proof
    that from whole buffers — the three inputs at `x0`, `x1`, `x2`, the output at its running contents
    `xo` — the body runs to a continuation that receives the inputs as they were and the output with those
    pieces written. -/
noncomputable def runB (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S8x128 .f32) (harg5 : arg5.IsWhole) (hc0 : ¬cond0 i)
    (x0 : Vec F S512x512 .bf16) (x1 : Vec F S512x512 .bf16) (x2 : Vec F S512x512 .f32)
    (xo : Vec F S8x128 .f32) :
    { L : List (View.Piece (Elt F) S8x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xo
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__kernel i arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.KwFrame.lean ====
/-
  The kernel body at every grid point: what it leaves in the output block, point by point, and the
  obligation the launch asks of it.

  At a point divisible by 8 (the start of a row of the grid) the output block ends as the cleared block
  plus the tile's contribution, computed from the three input blocks alone. At any other point it ends
  as what the point before left plus the tile's contribution: the block is not written back between the
  two, so the buffer still holds it. The input buffers hold their array's blocks at every point — a
  window that is not re-fetched has not moved — and the body leaves them as it found them. Two of the
  input windows read the same array, so each holds one half of it.
-/
import proofs.«146862_j47442208751734_2_alg».proof.Proof.KwRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The pieces cover the output block -/

/-- The pieces of the run with the branch taken (two stores of the whole 8 x 128 block) tile the block. -/
theorem coverA (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S8x128 .f32) (harg5 : arg5.IsWhole) (hc0 : cond0 i)
    (x0 : Vec F S512x512 .bf16) (x1 : Vec F S512x512 .bf16) (x2 : Vec F S512x512 .f32) (y : S8x128.Idx) :
    ∃ pc ∈ (runA c i arg2 harg2 arg3 harg3 arg4 harg4 arg5 harg5 hc0 x0 x1 x2).1, y ∈ pc.1.set :=
  View.cover_of_tiledL (runA c i arg2 harg2 arg3 harg3 arg4 harg4 arg5 harg5 hc0 x0 x1 x2).1 S8x128.size (by sl_kernel_rfl) y

/-- What the run with the branch taken leaves in the output block: its pieces read back over arbitrary
    prior contents. -/
def outA (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S8x128 .f32) (harg5 : arg5.IsWhole) (hc0 : cond0 i)
    (x0 : Vec F S512x512 .bf16) (x1 : Vec F S512x512 .bf16) (x2 : Vec F S512x512 .f32) : Vec F S8x128 .f32 :=
  VO3.read (Elt F) (VO3.writes (Elt F) VO3.junk (runA c i arg2 harg2 arg3 harg3 arg4 harg4 arg5 harg5 hc0 x0 x1 x2).1)

/-- The piece of the run with the branch not taken (one store of the whole block) tiles the block. -/
theorem coverB (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S8x128 .f32) (harg5 : arg5.IsWhole) (hc0 : ¬cond0 i)
    (x0 : Vec F S512x512 .bf16) (x1 : Vec F S512x512 .bf16) (x2 : Vec F S512x512 .f32) (xo : Vec F S8x128 .f32) (y : S8x128.Idx) :
    ∃ pc ∈ (runB c i arg2 harg2 arg3 harg3 arg4 harg4 arg5 harg5 hc0 x0 x1 x2 xo).1, y ∈ pc.1.set :=
  View.cover_of_tiledL (runB c i arg2 harg2 arg3 harg3 arg4 harg4 arg5 harg5 hc0 x0 x1 x2 xo).1 S8x128.size (by sl_kernel_rfl) y

/-- What the run with the branch not taken leaves in the output block. -/
def outB (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S8x128 .f32) (harg5 : arg5.IsWhole) (hc0 : ¬cond0 i)
    (x0 : Vec F S512x512 .bf16) (x1 : Vec F S512x512 .bf16) (x2 : Vec F S512x512 .f32) (xo : Vec F S8x128 .f32) : Vec F S8x128 .f32 :=
  VO3.read (Elt F) (VO3.writes (Elt F) VO3.junk (runB c i arg2 harg2 arg3 harg3 arg4 harg4 arg5 harg5 hc0 x0 x1 x2 xo).1)

/-! ## The output block after each point -/

/-- The running output block after the body at position `n`: at a multiple of 8 the branch-taken contents
    from the point's input blocks; elsewhere the other case's contents over what position `n - 1` left. -/
def outsAt (c : Dev nD) : (n : ℕ) → n < cfg0.N → Vec F S8x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond0 ⟨0, hn⟩).mpr (Nat.zero_mod _)) (iblk m c 0 ⟨0, hn⟩) (iblk m c 1 ⟨0, hn⟩) (iblk m c 2 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond0 ⟨n + 1, hn⟩).mpr h0) (iblk m c 0 ⟨n + 1, hn⟩) (iblk m c 1 ⟨n + 1, hn⟩) (iblk m c 2 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond0 ⟨n + 1, hn⟩).mp h)) (iblk m c 0 ⟨n + 1, hn⟩) (iblk m c 1 ⟨n + 1, hn⟩) (iblk m c 2 ⟨n + 1, hn⟩) (outsAt c n (Nat.lt_of_succ_lt hn))

/-- At a point divisible by 8. -/
theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) ((hcond0 t).mpr h0) (iblk m c 0 t) (iblk m c 1 t) (iblk m c 2 t) := by
  obtain ⟨n, hn⟩ := t
  cases n with
  | zero => exact rfl
  | succ n => exact (dif_pos h0).trans rfl

/-- At any other point: over what the point before left. -/
theorem outsAt_B (c : Dev nD) (t : Fin cfg0.N) (h0 : ¬t.val % 8 = 0) :
    outsAt m c t.val t.isLt = outB c (grid0.coords t) (ms0 t) (hs0 t) (ms1 t) (hs1 t) (ms2 t) (hs2 t) (ms3 t) (hs3 t) (fun h => h0 ((hcond0 t).mp h)) (iblk m c 0 t) (iblk m c 1 t) (iblk m c 2 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The launch's proof data -/

/-- The proof data on core `c`: the arrays as the region finds them; after the body at point `t` each input
    buffer at its block and the output buffer at `outsAt`; the invariant the rest of the scoped memory and
    the generator register; nothing owed; of the array the first two windows share, one half each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt)
  Φ _ := Pipeline.ΦA spec0 c
  q w := match w with
    | 0 => fullShare.left
    | 1 => fullShare.right
    | _ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt m c t.val t.isLt) := by dsimp only [dats]

/-- Each input's current staging buffer holds its block at every point, fetched there or not: an input that
    is not re-fetched has the block index it had at the point before, and the body left that block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- At a point not divisible by 8 the output's current staging buffer holds what the body left at the point
    before: the point is not the first, and the point before did not write the block back (only the last
    point of a row of the grid does). -/
theorem before0_3_B (c : Dev nD) (t : Fin cfg0.N) (h0 : ¬t.val % 8 = 0) (d) :
    (dats m 0 c).before 3 t d = (outsAt m c (t.val - 1) (Nat.lt_of_le_of_lt (Nat.sub_le _ _) t.isLt)) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the input buffers hold their blocks; the point is divisible by 8 or not, and in
    the second case the output buffer holds what the point before left; so the matching run applies; the
    invariant passes through unread and nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h0 : t.val % 8 = 0
  · rw [outsAt_A m c t h0]
    unfold outA
    iintro ⟨HΦ, Ho, ⟨%d0, H0⟩, ⟨%d1, H1⟩, ⟨%d2, H2⟩, ⟨%d3, H3⟩⟩
    iapply ((runA c (grid0.coords t) _ _ _ _ _ _ _ _ ((hcond0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _)
  · rw [outsAt_B m c t h0]
    simp only [before0_3_B m c t h0]
    unfold outB
    iintro ⟨HΦ, Ho, ⟨%d0, H0⟩, ⟨%d1, H1⟩, ⟨%d2, H2⟩, ⟨%d3, H3⟩⟩
    iapply ((runB c (grid0.coords t) _ _ _ _ _ _ _ _ (fun h => h0 ((hcond0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _)

/-- The launch's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KwEnd.lean ====
/-
  The run of the kernel's @main with the body's proof data: the body obligation holds at every grid point (the
  output block is cleared at the first point of each row of tiles and added to at every point), so the launch
  applies, and what the bypassing buffers hold at the end is read off: no host line writes an argument array, so
  the three arguments end as launched; the scalar result is the total of the result array, from the zero word,
  divided by the number of pairs.
-/
import proofs.«146862_j47442208751734_2_alg».proof.Proof.KwLaunch
import proofs.«146862_j47442208751734_2_alg».proof.Proof.KwFrame
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the bypassing buffers hold at the end -/

theorem prefix_keeps (b : Ref sig .tc) (hb : ∀ op ∈ (List.flatten [hostOps0, hostOps0_1] : List (HloOp τ sig (Elt F))), Proc.devRef .tc b ∉ op.writes) (c : Dev nD) :
    V m c b = m ((c : Thread nD τ).loc b) :=
  StableHlo.after_of_forall_not_mem (b := Proc.devRef .tc b) _ _ hb

theorem V_main_arg0 (c : Dev nD) : V m c main_arg0 = m ((c : Thread nD τ).loc main_arg0) :=
  prefix_keeps m main_arg0 (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, Finset.mem_singleton]
    repeat' apply And.intro
    all_goals exact StableHlo.devRef_ne_of_ne (by decide))) c

theorem V_main_arg1 (c : Dev nD) : V m c main_arg1 = m ((c : Thread nD τ).loc main_arg1) :=
  prefix_keeps m main_arg1 (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, Finset.mem_singleton]
    repeat' apply And.intro
    all_goals exact StableHlo.devRef_ne_of_ne (by decide))) c

theorem V_main_arg2 (c : Dev nD) : V m c main_arg2 = m ((c : Thread nD τ).loc main_arg2) :=
  prefix_keeps m main_arg2 (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, Finset.mem_singleton]
    repeat' apply And.intro
    all_goals exact StableHlo.devRef_ne_of_ne (by decide))) c

theorem tail_arg0 (c : Dev nD) (Vv : Valuation τ sig (Elt F)) (out : Buf (Elt F) ((c.tc : Thread nD τ).loc main_v24)) :
    StableHlo.after hostOps1 (Wt c Vv out) (Proc.devRef .tc main_arg0) = Vv (Proc.devRef .tc main_arg0) := by
  rw [StableHlo.after_of_forall_not_mem (b := Proc.devRef .tc main_arg0) _ _ (List.forall_iff_forall_mem.mp (by
    simp only [hostOps1, List.Forall, StableHlo.nullary_writes, StableHlo.binary_writes, Finset.mem_singleton]
    repeat' apply And.intro
    all_goals exact StableHlo.devRef_ne_of_ne (by decide))), Wt_rest c Vv out main_arg0 (by decide)]

theorem tail_arg1 (c : Dev nD) (Vv : Valuation τ sig (Elt F)) (out : Buf (Elt F) ((c.tc : Thread nD τ).loc main_v24)) :
    StableHlo.after hostOps1 (Wt c Vv out) (Proc.devRef .tc main_arg1) = Vv (Proc.devRef .tc main_arg1) := by
  rw [StableHlo.after_of_forall_not_mem (b := Proc.devRef .tc main_arg1) _ _ (List.forall_iff_forall_mem.mp (by
    simp only [hostOps1, List.Forall, StableHlo.nullary_writes, StableHlo.binary_writes, Finset.mem_singleton]
    repeat' apply And.intro
    all_goals exact StableHlo.devRef_ne_of_ne (by decide))), Wt_rest c Vv out main_arg1 (by decide)]

theorem tail_arg2 (c : Dev nD) (Vv : Valuation τ sig (Elt F)) (out : Buf (Elt F) ((c.tc : Thread nD τ).loc main_v24)) :
    StableHlo.after hostOps1 (Wt c Vv out) (Proc.devRef .tc main_arg2) = Vv (Proc.devRef .tc main_arg2) := by
  rw [StableHlo.after_of_forall_not_mem (b := Proc.devRef .tc main_arg2) _ _ (List.forall_iff_forall_mem.mp (by
    simp only [hostOps1, List.Forall, StableHlo.nullary_writes, StableHlo.binary_writes, Finset.mem_singleton]
    repeat' apply And.intro
    all_goals exact StableHlo.devRef_ne_of_ne (by decide))), Wt_rest c Vv out main_arg2 (by decide)]

/-- The scalar the closing lines leave: the total of the result array from the zero word, divided by the
    number of pairs (the literal 2^24). -/
theorem tail_result (c : Dev nD) (Vv : Valuation τ sig (Elt F)) (out : Buf (Elt F) ((c.tc : Thread nD τ).loc main_v24)) :
    @Eq (FVec F S_ .f32) (StableHlo.after hostOps1 (Wt c Vv out) (Proc.devRef .tc main_v26))
      (Host.divf (Host.reduceAdd (show FVec F S64x128 .f32 from out) (constant S_ .f32 0x00000000#32) reducesTo_S64x128_S_d0_1 h_S_)
        (constant S_ .f32 0x4B800000#32)) := by
  simp only [hostOps1]
  after_results
  rw [Wt_out]

/-! ## The run, the frame, the result -/

set_option backward.isDefEq.respectTransparency.types false in
/-- The launch at the body's proof data. -/
theorem run_main : θ_run defs (onTc (τ := τ) (main (F := F))) (s₀ m ρ) (fun r => ∀ c : Dev nD,
      ∀ b ∈ Pipeline.restRefs sig spec0, r.2.mem ((c.tc : Thread nD τ).loc b)
        = StableHlo.after hostOps1 (Wt c (V0 m c) ((dats m 0 c).arrAt 3 cfg0.N)) (Proc.devRef .tc b)) :=
  run_shared m ρ (dats m) (fun c => (body_obligation m c).loose) (fun _ => rfl) (fun _ => rfl) (fun _ => rfl)
    (fun _ _ => rfl) (A_eq m) (fun _ _ => rfl)

/-- Every weakly fair execution of @main terminates without a fault and leaves the three argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c) main_arg0 (Pipeline.mem_restRefs_of main_arg0 (by decide) (by decide))).trans ((tail_arg0 c _ _).trans (V_main_arg0 m c)),
     ((h c) main_arg1 (Pipeline.mem_restRefs_of main_arg1 (by decide) (by decide))).trans ((tail_arg1 c _ _).trans (V_main_arg1 m c)),
     ((h c) main_arg2 (Pipeline.mem_restRefs_of main_arg2 (by decide) (by decide))).trans ((tail_arg2 c _ _).trans (V_main_arg2 m c))⟩)
    (run_main m ρ)

/-- And the scalar result is the total of the result array as the grid left it, divided by the number of pairs. -/
theorem result_run : θ_run defs (onTc (τ := τ) (main (F := F))) ⟨m, fun _ => 0, ρ⟩ (fun r => ∀ c : Dev nD,
      r.2.mem ((c.tc : Thread nD τ).loc main_v26)
        = Host.divf (Host.reduceAdd (show FVec F S64x128 .f32 from (dats m 0 c).arrAt 3 cfg0.N) (constant S_ .f32 0x00000000#32) reducesTo_S64x128_S_d0_1 h_S_)
            (constant S_ .f32 0x4B800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c) main_v26 (Pipeline.mem_restRefs_of main_v26 (by decide) (by decide))).trans (tail_result c _ _),
     ((h c) main_arg0 (Pipeline.mem_restRefs_of main_arg0 (by decide) (by decide))).trans ((tail_arg0 c _ _).trans (V_main_arg0 m c)),
     ((h c) main_arg1 (Pipeline.mem_restRefs_of main_arg1 (by decide) (by decide))).trans ((tail_arg1 c _ _).trans (V_main_arg1 m c)),
     ((h c) main_arg2 (Pipeline.mem_restRefs_of main_arg2 (by decide) (by decide))).trans ((tail_arg2 c _ _).trans (V_main_arg2 m c))⟩)
    (run_main m ρ)

end Cert.Kernel.Hand

end
-- ==== Proof.KiEntry.lean ====
/-
  What the kernel region finds when it is entered. Before the region @main normalises the rows of the
  embedding matrix (a row divided by the larger of its Euclidean norm and a small constant) and gathers the
  class-distance table at the pairs of labels; the region's three input windows read blocks of those two arrays
  (two of the windows read row blocks of the SAME normalised matrix). Here: each buffer's contents at the region's
  entry as the host operations' composed value of the launch memory, and a window's block at a grid point read off
  its array at those contents.
-/
import proofs.«146862_j47442208751734_2_alg».proof.Proof.Gen.KernelIdeal.Launch
import proofs.«146862_j47442208751734_2_alg».proof.Proof.Gen.KernelIdeal.Skeleton
import proofs.«146862_j47442208751734_2_alg».proof.Proof.Gen.KernelIdeal.Points
import Idealize.ShloMosaic.Lib.Pipeline.FrameBody
import Idealize.ShloMosaic.Lib.Pipeline.FrameSuffix

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- Every device buffer of core `c` after the host operations that precede the region, run from the launch
    memory: the row norms and the normalised rows, then the label pairs and the gathered class distances. -/
abbrev V0 (c : Dev nD) : Valuation τ sig (Elt F) :=
  StableHlo.after (List.flatten [hostOps0, hostOps0_1]) (fun b => m (c, b))

/-- The same, at a TensorCore reference: what the region finds in buffer `b`. -/
abbrev V (c : Dev nD) (b : Ref sig .tc) : Buf (Elt F) ((c : Thread nD τ).loc b) := V0 m c (Proc.devRef .tc b)

/-- Window `w`'s block at grid point `t`, read off its array as the region finds it: for the two row-block
    windows 512 rows of the normalised matrix (rows `512·i` onwards for window 0, `512·j` onwards for window 1,
    at the point `t = 8·i + j`), for window 2 the 512×512 tile `(i, j)` of the class distances. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.KernelIdeal.Hand

end
-- ==== Proof.KiLaunch.lean ====
/-
  The launch of the kernel: @main is host lines, one region, host lines. Two of the region's four windows read
  row blocks of ONE array (the row-normalised embeddings), so the array is shared between them: at the region's
  entry each of the two windows takes half of it, which is enough to read it, and the halves are never rejoined
  because nothing after the region touches that array. The lines after the region read only the region's result
  array and write four buffers that bypass the region; they are run from the region's exit within those buffers.
  The conclusion names what every bypassing buffer holds at the end: the closing lines' value of the result array
  as the grid left it — in particular the argument arrays as launched and the scalar result.
-/
import proofs.«146862_j47442208751734_2_alg».proof.Proof.KiEntry
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines that normalise the rows and gather the class distances, the region, and the host
    lines that total the region's result and divide by the number of pairs. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- The three distinct arrays behind the four windows. -/
theorem arrImage : Finset.univ.image (Pipeline.arrRef spec0) = ([main_v5, main_v23, main_v24] : List (Ref sig .tc)).toFinset := by decide

/-! ## The arrays at the region's entry: one array, two readers -/

/-- The distinct arrays conjoined one by one. -/
theorem bigSep_arrs {M : Type} [URA M] (Φ : Ref sig .tc → sProp M) :
    bigSep (Finset.univ.image (Pipeline.arrRef spec0)) Φ = iprop(Φ main_v5 ∗ Φ main_v23 ∗ Φ main_v24) :=
  bigSep_eq_bigSepL_of_eq [main_v5, main_v23, main_v24] arrImage (by decide) Φ

/-- The row-normalised matrix is read by two windows: each holds one half of it. The tile of class distances and
    the result array are each held whole by their one window. -/
theorem arrays_of_bufs (c : Dev nD) (dat : Dat τ (Elt F) Unit ℕ (UR sig nD τ) ℕ cfg0 c)
    (hq0 : dat.q 0 = fullShare.left) (hq1 : dat.q 1 = fullShare.right) (hq2 : dat.q 2 = fullShare)
    (hA : ∀ w, dat.A w = V m c (Pipeline.arrRef spec0 w)) :
    (Pipeline.arrBufs spec0 c (V m c) : sProp 𝕄) ⊢ dat.arrays (dat.arrAt · 0) := by
  have hs0 : dat.share 0 = fullShare.left := by unfold Dat.share; rw [if_neg (by decide)]; exact hq0
  have hs1 : dat.share 1 = fullShare.right := by unfold Dat.share; rw [if_neg (by decide)]; exact hq1
  have hs2 : dat.share 2 = fullShare := by unfold Dat.share; rw [if_neg (by decide)]; exact hq2
  have hs3 : dat.share 3 = fullShare := by unfold Dat.share; rw [if_pos (by decide)]
  unfold Pipeline.arrBufs Dat.arrays
  rw [bigSep_arrs, bigSep_W0]
  rw [(arr_whole0 0).set_eq_univ, (arr_whole0 2).set_eq_univ, (arr_whole0 3).set_eq_univ, hs0, hs1, hs2, hs3]
  beta_reduce
  rw [show dat.arrAt 0 0 = dat.A 0 from rfl, show dat.arrAt 1 0 = dat.A 1 from rfl, show dat.arrAt 2 0 = dat.A 2 from rfl,
    show dat.arrAt 3 0 = dat.A 3 from rfl, hA 0, hA 1, hA 2, hA 3]
  iintro ⟨H5, H23, H24⟩
  ihave H5' := (pointsTo_share (PosShare.mem_left_op_right fullShare)).1 $$ H5
  icases H5' with ⟨H5l, H5r⟩
  isplitl [H5l]; · iexact H5l
  isplitl [H5r]; · iexact H5r
  isplitl [H23]; · iexact H23
  iexact H24

/-! ## The host lines after the region -/

/-- The buffers the closing host lines run within: the result array (which they read) and the buffers that
    bypass the region (among them the four they write). The two input arrays stay with their windows. -/
def tailSet : Finset (DevRef τ sig) :=
  (insert main_v24 (Pipeline.restRefs sig spec0)).map ⟨Proc.devRef (sig := sig) .tc, Proc.devRef_injective _⟩

theorem mem_tailSet (b : Ref sig .tc) (h : b ∈ insert main_v24 (Pipeline.restRefs sig spec0)) :
    Proc.devRef (τ := τ) .tc b ∈ (tailSet : Finset (DevRef τ sig)) := Finset.mem_map_of_mem _ h

theorem main_v24_not_rest : main_v24 ∉ Pipeline.restRefs sig spec0 := fun h =>
  (Finset.mem_sdiff.mp h).2 (Finset.mem_image.mpr ⟨3, Finset.mem_univ _, rfl⟩)

/-- Those buffers held at a valuation: the result array, and the bypassing buffers. -/
theorem held_tailSet (c : Dev nD) (Wv : Valuation τ sig (Elt F)) :
    (StableHlo.held (c.tc : Thread nD τ) tailSet Wv : sProp 𝕄)
      = iprop((((c.tc : Thread nD τ).loc main_v24) ↦{fullShare} Wv (Proc.devRef .tc main_v24))
          ∗ Pipeline.unscopedRest spec0 c (fun b => Wv (Proc.devRef .tc b))) := by
  classical
  unfold StableHlo.held tailSet Pipeline.unscopedRest
  rw [bigSep_map, bigSep_insert main_v24_not_rest]
  rfl

/-- A valuation with the result array replaced: what the buffers hold when the region is left, the result array
    at what the grid accumulated, every other buffer as the region found it. -/
def Wt (c : Dev nD) (Vv : Valuation τ sig (Elt F)) (out : Buf (Elt F) ((c.tc : Thread nD τ).loc main_v24)) : Valuation τ sig (Elt F) :=
  Function.update Vv (Proc.devRef .tc main_v24) out

theorem Wt_out (c : Dev nD) (Vv : Valuation τ sig (Elt F)) (out : Buf (Elt F) ((c.tc : Thread nD τ).loc main_v24)) :
    Wt c Vv out (Proc.devRef .tc main_v24) = out := Function.update_self ..

theorem Wt_rest (c : Dev nD) (Vv : Valuation τ sig (Elt F)) (out : Buf (Elt F) ((c.tc : Thread nD τ).loc main_v24)) (b : Ref sig .tc) (hb : b ≠ main_v24) :
    Wt c Vv out (Proc.devRef .tc b) = Vv (Proc.devRef .tc b) := Function.update_of_ne (StableHlo.devRef_ne_of_ne hb) ..

theorem rest_Wt (c : Dev nD) (Vv : Valuation τ sig (Elt F)) (out : Buf (Elt F) ((c.tc : Thread nD τ).loc main_v24)) :
    (Pipeline.unscopedRest spec0 c (fun b => Wt c Vv out (Proc.devRef .tc b)) : sProp 𝕄)
      = Pipeline.unscopedRest spec0 c (fun b => Vv (Proc.devRef .tc b)) := by
  unfold Pipeline.unscopedRest
  exact bigSep_congr fun b hb => by beta_reduce; rw [Wt_rest c Vv out b (fun e => main_v24_not_rest (e ▸ hb))]

theorem tail_sub : ∀ op ∈ (hostOps1 : List (HloOp τ sig (Elt F))), op.bufs ⊆ tailSet := by
  intro op hop
  simp only [hostOps1, List.mem_cons, List.mem_nil_iff, or_false] at hop
  rcases hop with rfl | rfl | rfl | rfl
  all_goals
    simp only [StableHlo.nullary_bufs, StableHlo.binary_bufs, Finset.insert_subset_iff, Finset.singleton_subset_iff]
    repeat' apply And.intro
    all_goals
      first
      | exact mem_tailSet _ (Finset.mem_insert_self _ _)
      | exact mem_tailSet _ (Finset.mem_insert_of_mem (Pipeline.mem_restRefs_of _ (by decide) (by decide)))

theorem tail_keeps : ∀ op ∈ (hostOps1 : List (HloOp τ sig (Elt F))), Proc.devRef .tc main_v24 ∉ op.writes := by
  intro op hop
  simp only [hostOps1, List.mem_cons, List.mem_nil_iff, or_false] at hop
  rcases hop with rfl | rfl | rfl | rfl
  all_goals
    simp only [StableHlo.nullary_writes, StableHlo.binary_writes, Finset.mem_singleton]
    exact StableHlo.devRef_ne_of_ne (by decide)

theorem held_exit (c : Dev nD) (Vv : Valuation τ sig (Elt F)) (out : Buf (Elt F) ((c.tc : Thread nD τ).loc main_v24)) :
    (StableHlo.held (c.tc : Thread nD τ) tailSet (Wt c Vv out) : sProp 𝕄)
      = iprop((((c.tc : Thread nD τ).loc main_v24) ↦{fullShare} out) ∗ Pipeline.unscopedRest spec0 c (fun b => Vv (Proc.devRef .tc b))) := by
  rw [held_tailSet, Wt_out, rest_Wt]

theorem held_end (c : Dev nD) (Vv : Valuation τ sig (Elt F)) (out : Buf (Elt F) ((c.tc : Thread nD τ).loc main_v24)) :
    (StableHlo.held (c.tc : Thread nD τ) tailSet (StableHlo.after hostOps1 (Wt c Vv out)) : sProp 𝕄)
      = iprop((((c.tc : Thread nD τ).loc main_v24) ↦{fullShare} out)
          ∗ Pipeline.unscopedRest spec0 c (fun b => StableHlo.after hostOps1 (Wt c Vv out) (Proc.devRef .tc b))) := by
  rw [held_tailSet, StableHlo.after_of_forall_not_mem _ _ tail_keeps, Wt_out]

set_option backward.isDefEq.respectTransparency.types false in
/-- The closing host lines, run from the region's exit: they total the result array and divide, reading the
    result array and writing four bypassing buffers. -/
theorem tail_run (𝒱₀ : Variants) (c : Dev nD) (Vv : Valuation τ sig (Elt F)) (out : Buf (Elt F) ((c.tc : Thread nD τ).loc main_v24)) (Q' : PUnit → sProp 𝕄) :
    iprop((iprop((((c.tc : Thread nD τ).loc main_v24) ↦{fullShare} out)
              ∗ Pipeline.unscopedRest spec0 c (fun b => StableHlo.after hostOps1 (Wt c Vv out) (Proc.devRef .tc b))) -∗ Q' ⟨⟩)
        ∗ boundary (c.tc : Thread nD τ) ∗ (((c.tc : Thread nD τ).loc main_v24) ↦{fullShare} out)
        ∗ Pipeline.unscopedRest spec0 c (fun b => Vv (Proc.devRef .tc b)))
      ⊢ wp frame (wpE (Pipeline.defs (fun q => Cfg.toPCfg (Val := Elt F) (cfgs q)) defs₀) (Variants.lift 𝒱₀) (c.tc : Thread nD τ) none) Set.univ
          (Pipeline.chain [StableHlo.seq hostOps1]) Q' := by
  classical
  simp only [Pipeline.chain_cons, Pipeline.chain_nil]
  iintro ⟨Hk, Hbd, H24, HR⟩
  ihave Hh := (Entails.of_eq (held_exit c Vv out).symm) $$ [H24 HR]
  · isplitl [H24]; · iexact H24
    iexact HR
  iapply (StableHlo.wp_seq (defs := Pipeline.defs (fun q => Cfg.toPCfg (Val := Elt F) (cfgs q)) defs₀) (Variants.lift 𝒱₀) none Set.univ c tailSet
    (fun _ => pure ⟨⟩) (K := Q') hostOps1 tail_sub (List.forall_iff_forall_mem.mp hostOps1_fresh) (Wt c Vv out)) $$ [Hbd Hh]
  · isplitl [Hbd]; · iexact Hbd
    iexact Hh
  iintro ⟨Hbd, Hh⟩
  rw [wp_pure]
  imodintro
  iapply Hk
  iapply (Entails.of_eq (held_end c Vv out))
  iexact Hh

/-! ## The run -/

set_option backward.isDefEq.respectTransparency.types false in
/-- Every weakly fair execution of @main terminates, and at the end every buffer that bypasses the region holds
    what the closing host lines compute from the result array as the grid left it, the other buffers as the
    region found them. For any proof data of the pipeline whose arrays are the entry contents, whose two
    row-block windows each hold half of their common array, whose invariant is the scoped rest and the generator
    register, and whose body obligation holds. -/
theorem run_shared (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right) (hq2 : ∀ c, (dats 0 c).q 2 = fullShare)
    (howed : ∀ c t, (dats 0 c).owed t = 0)
    (hA : ∀ c w, (dats 0 c).A w = V m c (Pipeline.arrRef spec0 w))
    (hΦ : ∀ c t, (dats 0 c).Φ t = Pipeline.ΦA spec0 c) :
    θ_run defs (onTc (τ := τ) (main (F := F))) (s₀ m ρ) (fun r => ∀ c : Dev nD,
      ∀ b ∈ Pipeline.restRefs sig spec0, r.2.mem ((c.tc : Thread nD τ).loc b)
        = StableHlo.after hostOps1 (Wt c (V0 m c) ((dats 0 c).arrAt 3 cfg0.N)) (Proc.devRef .tc b)) := by
  classical
  have hs3 : ∀ c, (dats 0 c).share 3 = fullShare := fun c => by unfold Dat.share; rw [if_pos (by decide)]
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (dats 0 c) (hq0 c) (hq1 c) (hq2 c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (fun b => StableHlo.after hostOps1 (Wt c (V0 m c) ((dats 0 c).arrAt 3 cfg0.N)) (Proc.devRef .tc b)))
    (hX := fun c => by
      rw [Pipeline.unscopedRestP_none]
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr]; · iexact Hr
      iexact Hp)
    (hout := fun c => by
      rw [hΦ, Pipeline.ownSems0_none]; unfold Pipeline.ΦA
      iintro ⟨Hr, Hp⟩
      isplitl [Hp]; · iexact Hp
      isplitr; · iempintro
      iexact Hr)
    (htail := fun c Q' => by
      unfold Dat.arrays
      rw [bigSep_W0, (arr_whole0 3).set_eq_univ, hs3 c]
      refine BIBase.Entails.trans ?_ (tail_run Variants.none c (V0 m c) ((dats 0 c).arrAt 3 cfg0.N) Q')
      iintro ⟨Hk, Hbd, ⟨H0, H1, H2, H3⟩, HZ⟩
      isplitl [Hk H0 H1 H2]
      · iintro ⟨H3, HZ'⟩
        iapply Hk
        isplitr [HZ']
        · isplitl [H0]; · iexact H0
          isplitl [H1]; · iexact H1
          isplitl [H2]; · iexact H2
          iexact H3
        · iexact HZ'
      isplitl [Hbd]; · iexact Hbd
      isplitl [H3]; · iexact H3
      iexact HZ)
    (QY := fun c s => ∀ b ∈ Pipeline.restRefs sig spec0, s.mem ((c.tc : Thread nD τ).loc b)
        = StableHlo.after hostOps1 (Wt c (V0 m c) ((dats 0 c).arrAt 3 cfg0.N)) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => StableHlo.after hostOps1 (Wt c (V0 m c) ((dats 0 c).arrAt 3 cfg0.N)) (Proc.devRef .tc b)) s')
      isplitl [HU] <;> iassumption)
    (hQ := fun s h c => (h c).2.2)

end Cert.KernelIdeal.Hand

end
-- ==== Proof.KiBody.lean ====
/-
  The kernel body's control, in closed form, and the names the body's runs are stated over.

  The body branches once, on the second grid coordinate being zero: there it clears the running output
  block before adding the tile's contribution, elsewhere it adds to what the block already holds. Over the
  8 x 8 grid, at the point t = 8 i + j, the branch is taken exactly when t is a multiple of 8.
-/
import proofs.«146862_j47442208751734_2_alg».proof.Proof.KiEntry
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The branch condition -/

/-- The body's branch condition as a function of the grid coordinates: the second coordinate, as a 32-bit
    word, compared with zero, the one-bit answer widened and compared with zero again. -/
abbrev cond0 (i : grid0.Coords) : Prop :=
  (Scalar.cmpi .ne (Scalar.extui (Scalar.cmpi .eq (BitVec.ofNat 32 (i 1).val) 0#32)) 0#32) = 1#1

/-- It holds exactly at the first point of each row of the grid: the points divisible by 8. Decided
    over the 64 points. -/
theorem hcond0 : ∀ t : Fin cfg0.N, cond0 (grid0.coords t) ↔ t.val % 8 = 0 :=
  (by decide +kernel : ∀ t : Fin grid0.N, cond0 (grid0.coords t) ↔ t.val % 8 = 0)

/-! ## The buffers the body is called with -/

/-- One staging buffer of the output window: contents of the output block are stated through its view
    (any whole 8 x 128 view would do). -/
abbrev VO3 : View sig .tc .vmem S8x128 .f32 := (Memref.whole cc0_stg3_0 : Memref sig .tc .vmem S8x128 .f32).view

/-- Each window's current staging buffer at point `t`, as the body is called with it, and its wholeness. -/
abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x128 .f32 := win0_3.stage (cfg0.slots t 3)
abbrev hs3 (t : Fin cfg0.N) : (ms3 t).IsWhole := hstage0_3 ((cfg0.slots t 3).cast nbuf0_3)

end Cert.KernelIdeal.Hand

end
-- ==== Proof.KiRunA.lean ====
/-
  The body's run at a point where the branch is taken (second grid coordinate zero).

  There the body first overwrites the whole output block with zeros, then loads its three input blocks,
  forms the tile's contribution, and stores back the block it has just cleared plus that contribution.
  The statement: on whole buffers, the inputs at given contents and the output at anything, the body runs
  to its continuation with the inputs unchanged and the output holding a list of written pieces; the
  list is the witness the run produces.
-/
import proofs.«146862_j47442208751734_2_alg».proof.Proof.KiBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output buffer (last store first) when the branch is taken,
    with the proof that from whole buffers — the three inputs at `x0`, `x1`, `x2`, the output at any
    contents — the body runs to a continuation that receives the inputs as they were and the output with
    those pieces written. -/
noncomputable def runA (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S8x128 .f32) (harg5 : arg5.IsWhole) (hc0 : cond0 i)
    (x0 : Vec F S512x512 .bf16) (x1 : Vec F S512x512 .bf16) (x2 : Vec F S512x512 .f32) :
    { L : List (View.Piece (Elt F) S8x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__kernel i arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KiRunB.lean ====
/-
  The body's run at a point where the branch is not taken (second grid coordinate nonzero).

  There the body loads its three input blocks, forms the tile's contribution, and stores back what the
  output block already holds plus that contribution. The statement: on whole buffers, the inputs at given
  contents and the output at its running contents, the body runs to its continuation with the inputs
  unchanged and the output holding a list of written pieces; the list is the witness the run produces.
-/
import proofs.«146862_j47442208751734_2_alg».proof.Proof.KiRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's store leaves in the output buffer when the branch is not taken, with the proof
    that from whole buffers — the three inputs at `x0`, `x1`, `x2`, the output at its running contents
    `xo` — the body runs to a continuation that receives the inputs as they were and the output with those
    pieces written. -/
noncomputable def runB (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S8x128 .f32) (harg5 : arg5.IsWhole) (hc0 : ¬cond0 i)
    (x0 : Vec F S512x512 .bf16) (x1 : Vec F S512x512 .bf16) (x2 : Vec F S512x512 .f32)
    (xo : Vec F S8x128 .f32) :
    { L : List (View.Piece (Elt F) S8x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xo
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__kernel i arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KiFrame.lean ====
/-
  The kernel body at every grid point: what it leaves in the output block, point by point, and the
  obligation the launch asks of it.

  At a point divisible by 8 (the start of a row of the grid) the output block ends as the cleared block
  plus the tile's contribution, computed from the three input blocks alone. At any other point it ends
  as what the point before left plus the tile's contribution: the block is not written back between the
  two, so the buffer still holds it. The input buffers hold their array's blocks at every point — a
  window that is not re-fetched has not moved — and the body leaves them as it found them. Two of the
  input windows read the same array, so each holds one half of it.
-/
import proofs.«146862_j47442208751734_2_alg».proof.Proof.KiRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The pieces cover the output block -/

/-- The pieces of the run with the branch taken (two stores of the whole 8 x 128 block) tile the block. -/
theorem coverA (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S8x128 .f32) (harg5 : arg5.IsWhole) (hc0 : cond0 i)
    (x0 : Vec F S512x512 .bf16) (x1 : Vec F S512x512 .bf16) (x2 : Vec F S512x512 .f32) (y : S8x128.Idx) :
    ∃ pc ∈ (runA c i arg2 harg2 arg3 harg3 arg4 harg4 arg5 harg5 hc0 x0 x1 x2).1, y ∈ pc.1.set :=
  View.cover_of_tiledL (runA c i arg2 harg2 arg3 harg3 arg4 harg4 arg5 harg5 hc0 x0 x1 x2).1 S8x128.size (by sl_kernel_rfl) y

/-- What the run with the branch taken leaves in the output block: its pieces read back over arbitrary
    prior contents. -/
def outA (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S8x128 .f32) (harg5 : arg5.IsWhole) (hc0 : cond0 i)
    (x0 : Vec F S512x512 .bf16) (x1 : Vec F S512x512 .bf16) (x2 : Vec F S512x512 .f32) : Vec F S8x128 .f32 :=
  VO3.read (Elt F) (VO3.writes (Elt F) VO3.junk (runA c i arg2 harg2 arg3 harg3 arg4 harg4 arg5 harg5 hc0 x0 x1 x2).1)

/-- The piece of the run with the branch not taken (one store of the whole block) tiles the block. -/
theorem coverB (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S8x128 .f32) (harg5 : arg5.IsWhole) (hc0 : ¬cond0 i)
    (x0 : Vec F S512x512 .bf16) (x1 : Vec F S512x512 .bf16) (x2 : Vec F S512x512 .f32) (xo : Vec F S8x128 .f32) (y : S8x128.Idx) :
    ∃ pc ∈ (runB c i arg2 harg2 arg3 harg3 arg4 harg4 arg5 harg5 hc0 x0 x1 x2 xo).1, y ∈ pc.1.set :=
  View.cover_of_tiledL (runB c i arg2 harg2 arg3 harg3 arg4 harg4 arg5 harg5 hc0 x0 x1 x2 xo).1 S8x128.size (by sl_kernel_rfl) y

/-- What the run with the branch not taken leaves in the output block. -/
def outB (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S8x128 .f32) (harg5 : arg5.IsWhole) (hc0 : ¬cond0 i)
    (x0 : Vec F S512x512 .bf16) (x1 : Vec F S512x512 .bf16) (x2 : Vec F S512x512 .f32) (xo : Vec F S8x128 .f32) : Vec F S8x128 .f32 :=
  VO3.read (Elt F) (VO3.writes (Elt F) VO3.junk (runB c i arg2 harg2 arg3 harg3 arg4 harg4 arg5 harg5 hc0 x0 x1 x2 xo).1)

/-! ## The output block after each point -/

/-- The running output block after the body at position `n`: at a multiple of 8 the branch-taken contents
    from the point's input blocks; elsewhere the other case's contents over what position `n - 1` left. -/
def outsAt (c : Dev nD) : (n : ℕ) → n < cfg0.N → Vec F S8x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond0 ⟨0, hn⟩).mpr (Nat.zero_mod _)) (iblk m c 0 ⟨0, hn⟩) (iblk m c 1 ⟨0, hn⟩) (iblk m c 2 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond0 ⟨n + 1, hn⟩).mpr h0) (iblk m c 0 ⟨n + 1, hn⟩) (iblk m c 1 ⟨n + 1, hn⟩) (iblk m c 2 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond0 ⟨n + 1, hn⟩).mp h)) (iblk m c 0 ⟨n + 1, hn⟩) (iblk m c 1 ⟨n + 1, hn⟩) (iblk m c 2 ⟨n + 1, hn⟩) (outsAt c n (Nat.lt_of_succ_lt hn))

/-- At a point divisible by 8. -/
theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) ((hcond0 t).mpr h0) (iblk m c 0 t) (iblk m c 1 t) (iblk m c 2 t) := by
  obtain ⟨n, hn⟩ := t
  cases n with
  | zero => exact rfl
  | succ n => exact (dif_pos h0).trans rfl

/-- At any other point: over what the point before left. -/
theorem outsAt_B (c : Dev nD) (t : Fin cfg0.N) (h0 : ¬t.val % 8 = 0) :
    outsAt m c t.val t.isLt = outB c (grid0.coords t) (ms0 t) (hs0 t) (ms1 t) (hs1 t) (ms2 t) (hs2 t) (ms3 t) (hs3 t) (fun h => h0 ((hcond0 t).mp h)) (iblk m c 0 t) (iblk m c 1 t) (iblk m c 2 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The launch's proof data -/

/-- The proof data on core `c`: the arrays as the region finds them; after the body at point `t` each input
    buffer at its block and the output buffer at `outsAt`; the invariant the rest of the scoped memory and
    the generator register; nothing owed; of the array the first two windows share, one half each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt)
  Φ _ := Pipeline.ΦA spec0 c
  q w := match w with
    | 0 => fullShare.left
    | 1 => fullShare.right
    | _ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt m c t.val t.isLt) := by dsimp only [dats]

/-- Each input's current staging buffer holds its block at every point, fetched there or not: an input that
    is not re-fetched has the block index it had at the point before, and the body left that block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- At a point not divisible by 8 the output's current staging buffer holds what the body left at the point
    before: the point is not the first, and the point before did not write the block back (only the last
    point of a row of the grid does). -/
theorem before0_3_B (c : Dev nD) (t : Fin cfg0.N) (h0 : ¬t.val % 8 = 0) (d) :
    (dats m 0 c).before 3 t d = (outsAt m c (t.val - 1) (Nat.lt_of_le_of_lt (Nat.sub_le _ _) t.isLt)) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the input buffers hold their blocks; the point is divisible by 8 or not, and in
    the second case the output buffer holds what the point before left; so the matching run applies; the
    invariant passes through unread and nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h0 : t.val % 8 = 0
  · rw [outsAt_A m c t h0]
    unfold outA
    iintro ⟨HΦ, Ho, ⟨%d0, H0⟩, ⟨%d1, H1⟩, ⟨%d2, H2⟩, ⟨%d3, H3⟩⟩
    iapply ((runA c (grid0.coords t) _ _ _ _ _ _ _ _ ((hcond0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _)
  · rw [outsAt_B m c t h0]
    simp only [before0_3_B m c t h0]
    unfold outB
    iintro ⟨HΦ, Ho, ⟨%d0, H0⟩, ⟨%d1, H1⟩, ⟨%d2, H2⟩, ⟨%d3, H3⟩⟩
    iapply ((runB c (grid0.coords t) _ _ _ _ _ _ _ _ (fun h => h0 ((hcond0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _)

/-- The launch's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiEnd.lean ====
/-
  The run of the kernel's @main with the body's proof data: the body obligation holds at every grid point (the
  output block is cleared at the first point of each row of tiles and added to at every point), so the launch
  applies, and what the bypassing buffers hold at the end is read off: no host line writes an argument array, so
  the three arguments end as launched; the scalar result is the total of the result array, from the zero word,
  divided by the number of pairs.
-/
import proofs.«146862_j47442208751734_2_alg».proof.Proof.KiLaunch
import proofs.«146862_j47442208751734_2_alg».proof.Proof.KiFrame
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the bypassing buffers hold at the end -/

theorem prefix_keeps (b : Ref sig .tc) (hb : ∀ op ∈ (List.flatten [hostOps0, hostOps0_1] : List (HloOp τ sig (Elt F))), Proc.devRef .tc b ∉ op.writes) (c : Dev nD) :
    V m c b = m ((c : Thread nD τ).loc b) :=
  StableHlo.after_of_forall_not_mem (b := Proc.devRef .tc b) _ _ hb

theorem V_main_arg0 (c : Dev nD) : V m c main_arg0 = m ((c : Thread nD τ).loc main_arg0) :=
  prefix_keeps m main_arg0 (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, Finset.mem_singleton]
    repeat' apply And.intro
    all_goals exact StableHlo.devRef_ne_of_ne (by decide))) c

theorem V_main_arg1 (c : Dev nD) : V m c main_arg1 = m ((c : Thread nD τ).loc main_arg1) :=
  prefix_keeps m main_arg1 (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, Finset.mem_singleton]
    repeat' apply And.intro
    all_goals exact StableHlo.devRef_ne_of_ne (by decide))) c

theorem V_main_arg2 (c : Dev nD) : V m c main_arg2 = m ((c : Thread nD τ).loc main_arg2) :=
  prefix_keeps m main_arg2 (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, Finset.mem_singleton]
    repeat' apply And.intro
    all_goals exact StableHlo.devRef_ne_of_ne (by decide))) c

theorem tail_arg0 (c : Dev nD) (Vv : Valuation τ sig (Elt F)) (out : Buf (Elt F) ((c.tc : Thread nD τ).loc main_v24)) :
    StableHlo.after hostOps1 (Wt c Vv out) (Proc.devRef .tc main_arg0) = Vv (Proc.devRef .tc main_arg0) := by
  rw [StableHlo.after_of_forall_not_mem (b := Proc.devRef .tc main_arg0) _ _ (List.forall_iff_forall_mem.mp (by
    simp only [hostOps1, List.Forall, StableHlo.nullary_writes, StableHlo.binary_writes, Finset.mem_singleton]
    repeat' apply And.intro
    all_goals exact StableHlo.devRef_ne_of_ne (by decide))), Wt_rest c Vv out main_arg0 (by decide)]

theorem tail_arg1 (c : Dev nD) (Vv : Valuation τ sig (Elt F)) (out : Buf (Elt F) ((c.tc : Thread nD τ).loc main_v24)) :
    StableHlo.after hostOps1 (Wt c Vv out) (Proc.devRef .tc main_arg1) = Vv (Proc.devRef .tc main_arg1) := by
  rw [StableHlo.after_of_forall_not_mem (b := Proc.devRef .tc main_arg1) _ _ (List.forall_iff_forall_mem.mp (by
    simp only [hostOps1, List.Forall, StableHlo.nullary_writes, StableHlo.binary_writes, Finset.mem_singleton]
    repeat' apply And.intro
    all_goals exact StableHlo.devRef_ne_of_ne (by decide))), Wt_rest c Vv out main_arg1 (by decide)]

theorem tail_arg2 (c : Dev nD) (Vv : Valuation τ sig (Elt F)) (out : Buf (Elt F) ((c.tc : Thread nD τ).loc main_v24)) :
    StableHlo.after hostOps1 (Wt c Vv out) (Proc.devRef .tc main_arg2) = Vv (Proc.devRef .tc main_arg2) := by
  rw [StableHlo.after_of_forall_not_mem (b := Proc.devRef .tc main_arg2) _ _ (List.forall_iff_forall_mem.mp (by
    simp only [hostOps1, List.Forall, StableHlo.nullary_writes, StableHlo.binary_writes, Finset.mem_singleton]
    repeat' apply And.intro
    all_goals exact StableHlo.devRef_ne_of_ne (by decide))), Wt_rest c Vv out main_arg2 (by decide)]

/-- The scalar the closing lines leave: the total of the result array from the zero word, divided by the
    number of pairs (the literal 2^24). -/
theorem tail_result (c : Dev nD) (Vv : Valuation τ sig (Elt F)) (out : Buf (Elt F) ((c.tc : Thread nD τ).loc main_v24)) :
    @Eq (FVec F S_ .f32) (StableHlo.after hostOps1 (Wt c Vv out) (Proc.devRef .tc main_v26))
      (Host.divf (Host.reduceAdd (show FVec F S64x128 .f32 from out) (constant S_ .f32 0x00000000#32) reducesTo_S64x128_S_d0_1 h_S_)
        (constant S_ .f32 0x4B800000#32)) := by
  simp only [hostOps1]
  after_results
  rw [Wt_out]

/-! ## The run, the frame, the result -/

set_option backward.isDefEq.respectTransparency.types false in
/-- The launch at the body's proof data. -/
theorem run_main : θ_run defs (onTc (τ := τ) (main (F := F))) (s₀ m ρ) (fun r => ∀ c : Dev nD,
      ∀ b ∈ Pipeline.restRefs sig spec0, r.2.mem ((c.tc : Thread nD τ).loc b)
        = StableHlo.after hostOps1 (Wt c (V0 m c) ((dats m 0 c).arrAt 3 cfg0.N)) (Proc.devRef .tc b)) :=
  run_shared m ρ (dats m) (fun c => (body_obligation m c).loose) (fun _ => rfl) (fun _ => rfl) (fun _ => rfl)
    (fun _ _ => rfl) (A_eq m) (fun _ _ => rfl)

/-- Every weakly fair execution of @main terminates without a fault and leaves the three argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c) main_arg0 (Pipeline.mem_restRefs_of main_arg0 (by decide) (by decide))).trans ((tail_arg0 c _ _).trans (V_main_arg0 m c)),
     ((h c) main_arg1 (Pipeline.mem_restRefs_of main_arg1 (by decide) (by decide))).trans ((tail_arg1 c _ _).trans (V_main_arg1 m c)),
     ((h c) main_arg2 (Pipeline.mem_restRefs_of main_arg2 (by decide) (by decide))).trans ((tail_arg2 c _ _).trans (V_main_arg2 m c))⟩)
    (run_main m ρ)

/-- And the scalar result is the total of the result array as the grid left it, divided by the number of pairs. -/
theorem result_run : θ_run defs (onTc (τ := τ) (main (F := F))) ⟨m, fun _ => 0, ρ⟩ (fun r => ∀ c : Dev nD,
      r.2.mem ((c.tc : Thread nD τ).loc main_v26)
        = Host.divf (Host.reduceAdd (show FVec F S64x128 .f32 from (dats m 0 c).arrAt 3 cfg0.N) (constant S_ .f32 0x00000000#32) reducesTo_S64x128_S_d0_1 h_S_)
            (constant S_ .f32 0x4B800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c) main_v26 (Pipeline.mem_restRefs_of main_v26 (by decide) (by decide))).trans (tail_result c _ _),
     ((h c) main_arg0 (Pipeline.mem_restRefs_of main_arg0 (by decide) (by decide))).trans ((tail_arg0 c _ _).trans (V_main_arg0 m c)),
     ((h c) main_arg1 (Pipeline.mem_restRefs_of main_arg1 (by decide) (by decide))).trans ((tail_arg1 c _ _).trans (V_main_arg1 m c)),
     ((h c) main_arg2 (Pipeline.mem_restRefs_of main_arg2 (by decide) (by decide))).trans ((tail_arg2 c _ _).trans (V_main_arg2 m c))⟩)
    (run_main m ρ)

end Cert.KernelIdeal.Hand

end
-- ==== Proof.SumByBlocks.lean ====
/-
  Regrouping a double sum over 4096 × 4096 pairs into 8 × 8 square blocks of 512 × 512 pairs.

  An index below 4096 is uniquely `512 · i + p` with `i < 8` and `p < 512`; summing over the index is summing over
  `i` and then over `p`. Doing this for both indices of a double sum, and exchanging the two middle sums, gives the
  sum block by block. Only commutativity and associativity of addition are used, so the law holds in any commutative
  additive monoid — in particular on the extended reals, where no finiteness is needed.
-/
import Mathlib.Data.Fintype.BigOperators

noncomputable section

namespace Cert.MaskedSq

/-- Position `p` of block `i`: the index `512 · i + p`. -/
def blk (i : Fin 8) (p : Fin 512) : Fin 4096 := ⟨512 * i.val + p.val, by omega⟩

@[simp] theorem blk_val (i : Fin 8) (p : Fin 512) : (blk i p).val = 512 * i.val + p.val := rfl

/-- Quotient and remainder by 512 invert `blk`. -/
def blkEquiv : Fin 8 × Fin 512 ≃ Fin 4096 where
  toFun x := blk x.1 x.2
  invFun r := (⟨r.val / 512, by omega⟩, ⟨r.val % 512, by omega⟩)
  left_inv := by
    rintro ⟨i, p⟩
    refine Prod.ext (Fin.ext ?_) (Fin.ext ?_)
    · show (512 * i.val + p.val) / 512 = i.val
      omega
    · show (512 * i.val + p.val) % 512 = p.val
      omega
  right_inv := by
    intro r
    refine Fin.ext ?_
    show 512 * (r.val / 512) + r.val % 512 = r.val
    omega

/-- A sum over the 4096 indices is the sum over the 8 blocks of the sums inside each block. -/
theorem sum_blk {M : Type*} [AddCommMonoid M] (g : Fin 4096 → M) :
    ∑ r : Fin 4096, g r = ∑ i : Fin 8, ∑ p : Fin 512, g (blk i p) := by
  rw [← Equiv.sum_comp blkEquiv g, Fintype.sum_prod_type]
  rfl

/-- The regrouping law: a double sum over all pairs is the sum, over the 8 × 8 blocks, of the double sums inside. -/
theorem sum_sum_blk {M : Type*} [AddCommMonoid M] (f : Fin 4096 → Fin 4096 → M) :
    ∑ r : Fin 4096, ∑ c : Fin 4096, f r c
      = ∑ i : Fin 8, ∑ j : Fin 8, ∑ p : Fin 512, ∑ q : Fin 512, f (blk i p) (blk j q) := by
  rw [sum_blk fun r => ∑ c : Fin 4096, f r c]
  refine Finset.sum_congr rfl fun i _ => ?_
  refine (Finset.sum_congr rfl fun p _ => sum_blk fun c => f (blk i p) c).trans ?_
  exact Finset.sum_comm

end Cert.MaskedSq

end
-- ==== Proof.KiBlocks.lean ====
/-
  A window's block at a grid point, read at coordinates.

  At the point t = 8 i + j of the 8 x 8 grid the first window's block is rows 512 i .. 512 i + 511 of the
  normalised matrix, the second window's block rows 512 j .. 512 j + 511 of the same matrix, and the third
  window's block the 512 x 512 tile (i, j) of the class-distance array: inside a block the coordinate of an
  element is the block's index times the block's extent plus the coordinate inside the block. The fourth
  window's block (the output) is rows 8 i .. 8 i + 7 of the 64 x 128 result array.
-/
import proofs.«146862_j47442208751734_2_alg».proof.Proof.KiEntry
import proofs.«146862_j47442208751734_2_alg».proof.Proof.SumByBlocks
import Idealize.ShloMosaic.Lib.ValueIdx
import Idealize.ShloMosaic.Lib.Pipeline.Value

set_option maxRecDepth 16384

noncomputable section

namespace Cert.KernelIdeal.Hand

open Idealize.ShloMosaic Idealize.ShloMosaic.TcCoe
open Idealize.SL Idealize.SL.Sem
open Idealize.ShloMosaic.ValueIdx
open Cert.KernelIdeal Cert.KernelIdeal.Gen
open Cert.MaskedSq (blk)

variable {F : FTy → Type} [FloatOps F]

variable (m : (ℓ : Loc nD τ sig) → Buf (Elt F) ℓ)

/-- The grid has 64 points. -/
theorem N64 : cfg0.N = 64 := N_0

/-- The point (i, j) of the grid, in launch order. -/
def pt (i j : Fin 8) : Fin cfg0.N := ⟨8 * i.val + j.val, by rw [N64]; have := i.isLt; have := j.isLt; omega⟩

theorem pt_val (i j : Fin 8) : (pt i j).val = 8 * i.val + j.val := rfl
theorem pt_div (i j : Fin 8) : (pt i j).val / 8 = i.val := by rw [pt_val]; have := j.isLt; omega
theorem pt_mod (i j : Fin 8) : (pt i j).val % 8 = j.val := by rw [pt_val]; have := j.isLt; omega

/-- The windows' block indices at every point, decided over the grid: the first and third windows and the
    output move with the first grid coordinate, the second and the third's second axis with the second. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = 0 :=
  (by decide +kernel : ∀ t : Fin grid0.N, _)

/-- The first window's block: rows `512 i + p` of the normalised matrix. -/
theorem iblk0_apply (c : Dev nD) (t : Fin cfg0.N) (i : Fin 8) (hi : t.val / 8 = i.val) (p k : Fin 512) :
    (iblk m c 0 t : Vec F S512x512 .bf16) (ix2 p k)
      = (V m c main_v5 : S4096x512.Idx → Elt F .bf16) (ix2 (blk i p) k) := by
  obtain ⟨e0, e1, -⟩ := idx_facts t
  unfold iblk
  rw [View.read_apply]
  refine congrArg (V m c main_v5 : S4096x512.Idx → Elt F .bf16) (funext fun a => Fin.ext ?_)
  match a with
  | ⟨0, _⟩ => show win0_0.index t (0 : Fin 2) * 512 + 1 * p.val = 512 * i.val + p.val; rw [e0, hi]; omega
  | ⟨1, _⟩ => show win0_0.index t (1 : Fin 2) * 512 + 1 * k.val = k.val; rw [e1]; omega

/-- The second window's block: rows `512 j + q` of the same matrix. -/
theorem iblk1_apply (c : Dev nD) (t : Fin cfg0.N) (j : Fin 8) (hj : t.val % 8 = j.val) (q k : Fin 512) :
    (iblk m c 1 t : Vec F S512x512 .bf16) (ix2 q k)
      = (V m c main_v5 : S4096x512.Idx → Elt F .bf16) (ix2 (blk j q) k) := by
  obtain ⟨-, -, e0, e1, -⟩ := idx_facts t
  unfold iblk
  rw [View.read_apply]
  refine congrArg (V m c main_v5 : S4096x512.Idx → Elt F .bf16) (funext fun a => Fin.ext ?_)
  match a with
  | ⟨0, _⟩ => show win0_1.index t (0 : Fin 2) * 512 + 1 * q.val = 512 * j.val + q.val; rw [e0, hj]; omega
  | ⟨1, _⟩ => show win0_1.index t (1 : Fin 2) * 512 + 1 * k.val = k.val; rw [e1]; omega

/-- The third window's block: the tile (i, j) of the class-distance array. -/
theorem iblk2_apply (c : Dev nD) (t : Fin cfg0.N) (i j : Fin 8) (hi : t.val / 8 = i.val) (hj : t.val % 8 = j.val)
    (p q : Fin 512) :
    (iblk m c 2 t : Vec F S512x512 .f32) (ix2 p q)
      = (V m c main_v23 : S4096x4096.Idx → Elt F .f32) (ix2 (blk i p) (blk j q)) := by
  obtain ⟨-, -, -, -, e0, e1, -⟩ := idx_facts t
  unfold iblk
  rw [View.read_apply]
  refine congrArg (V m c main_v23 : S4096x4096.Idx → Elt F .f32) (funext fun a => Fin.ext ?_)
  match a with
  | ⟨0, _⟩ => show win0_2.index t (0 : Fin 2) * 512 + 1 * p.val = 512 * i.val + p.val; rw [e0, hi]; omega
  | ⟨1, _⟩ => show win0_2.index t (1 : Fin 2) * 512 + 1 * q.val = 512 * j.val + q.val; rw [e1, hj]; omega

/-- The three blocks at the point (i, j). -/
theorem iblk0_pt (c : Dev nD) (i j : Fin 8) (p k : Fin 512) :
    (iblk m c 0 (pt i j) : Vec F S512x512 .bf16) (ix2 p k)
      = (V m c main_v5 : S4096x512.Idx → Elt F .bf16) (ix2 (blk i p) k) :=
  iblk0_apply m c (pt i j) i (pt_div i j) p k
theorem iblk1_pt (c : Dev nD) (i j : Fin 8) (q k : Fin 512) :
    (iblk m c 1 (pt i j) : Vec F S512x512 .bf16) (ix2 q k)
      = (V m c main_v5 : S4096x512.Idx → Elt F .bf16) (ix2 (blk j q) k) :=
  iblk1_apply m c (pt i j) j (pt_mod i j) q k
theorem iblk2_pt (c : Dev nD) (i j : Fin 8) (p q : Fin 512) :
    (iblk m c 2 (pt i j) : Vec F S512x512 .f32) (ix2 p q)
      = (V m c main_v23 : S4096x4096.Idx → Elt F .f32) (ix2 (blk i p) (blk j q)) :=
  iblk2_apply m c (pt i j) i j (pt_div i j) (pt_mod i j) p q

end Cert.KernelIdeal.Hand

end
-- ==== Proof.KiArray.lean ====
/-
  The result array after the launch, from the blocks written back.

  The output window's block at the point t is rows 8 (t / 8) .. 8 (t / 8) + 7 of the 64 x 128 result
  array, and it is written back exactly at the last point of each row of the grid (t = 8 i + 7). Those
  eight write-backs tile the array, so after the launch row 8 i + a of the array is row a of what the
  body left in the output block at the point 8 i + 7.
-/
import proofs.«146862_j47442208751734_2_alg».proof.Proof.KiFrame
import proofs.«146862_j47442208751734_2_alg».proof.Proof.KiBlocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The running output block depends on the position and the index only through their values. -/
theorem outsAt_congr (c : Dev nD) {n n' : ℕ} (hn : n < cfg0.N) (hn' : n' < cfg0.N) (e : n = n')
    {x x' : S8x128.Idx} (ex : x = x') : outsAt m c n hn x = outsAt m c n' hn' x' := by
  subst e; subst ex; rfl

/-- The array the eight write-backs leave: row `r` is row `r % 8` of the output block after the last point
    of grid row `r / 8`. -/
def rowsOf (c : Dev nD) : S64x128.Idx → Elt F .f32 := fun y =>
  outsAt m c (8 * ((y 0).val / 8) + 7) (by rw [N64]; have := idx2_lt0 y; omega)
    (ix2 (⟨(y 0).val % 8, Nat.mod_lt _ (by decide)⟩ : Fin 8) (y 1))

/-- What a write-back point writes back is its block of that array. -/
theorem flushed3_eq (c : Dev nD) (t : Fin cfg0.N) (hf : (cfg0.win 3).flush t = true) :
    (dats m 0 c).flushed 3 t = ((cfg0.win 3).blk t).view.read (Elt F) (rowsOf m c) := by
  have h7 : t.val % 8 = 7 := (flush0_3 t).mp hf
  have hN : t.val < 64 := lt_of_lt_of_eq t.isLt N64
  obtain ⟨-, -, -, -, -, -, e0, e1⟩ := idx_facts t
  show (cfg0.win 3).cut (grid0.coords t) ((dats m 0 c).after 3 t) = _
  rw [after0_3]
  funext x
  rw [View.read_apply]
  have hx0 : (x 0).val < 8 := (x 0).isLt
  have c0 : ((((cfg0.win 3).blk t).view.emb x) 0).val = win0_3.index t (0 : Fin 2) * 8 + 1 * (x 0).val := rfl
  have c1 : ((((cfg0.win 3).blk t).view.emb x) 1).val = win0_3.index t (1 : Fin 2) * 128 + 1 * (x 1).val := rfl
  show outsAt m c t.val t.isLt x = outsAt m c _ _ _
  refine outsAt_congr m c _ _ (by rw [c0, e0]; omega) ?_
  funext a
  apply Fin.ext
  match a with
  | ⟨0, _⟩ => show (x 0).val = ((((cfg0.win 3).blk t).view.emb x) 0).val % 8; rw [c0, e0]; omega
  | ⟨1, _⟩ => show (x 1).val = ((((cfg0.win 3).blk t).view.emb x) 1).val; rw [c1, e1]; omega

/-- Every index of the result array is in the block of the write-back point of its grid row. -/
theorem cover3 (c : Dev nD) (y : S64x128.Idx) :
    ∃ t : Fin cfg0.N, (cfg0.win 3).flush t = true ∧ y ∈ ((cfg0.win 3).blk t).view.set := by
  have hy0 : (y 0).val < 64 := idx2_lt0 y
  have hy1 : (y 1).val < 128 := (y 1).isLt
  let t : Fin cfg0.N := ⟨8 * ((y 0).val / 8) + 7, by rw [N64]; omega⟩
  have htv : t.val = 8 * ((y 0).val / 8) + 7 := rfl
  obtain ⟨-, -, -, -, -, -, e0, e1⟩ := idx_facts t
  refine ⟨t, (flush0_3 t).mpr (by rw [htv]; omega), ?_⟩
  show y ∈ ((View.whole main_v24).slice (win0_3.rect t)).set
  rw [View.set_slice_whole, Rect.mem_set_unit]
  intro a
  match a with
  | ⟨0, _⟩ =>
    show win0_3.index t (0 : Fin 2) * 8 ≤ (y 0).val ∧ (y 0).val < win0_3.index t (0 : Fin 2) * 8 + 8
    rw [e0, htv]; omega
  | ⟨1, _⟩ =>
    show win0_3.index t (1 : Fin 2) * 128 ≤ (y 1).val ∧ (y 1).val < win0_3.index t (1 : Fin 2) * 128 + 128
    rw [e1]; omega

/-- The result array after the launch. -/
theorem arrAt3_eq (c : Dev nD) : (dats m 0 c).arrAt 3 cfg0.N = rowsOf m c :=
  (dats m 0 c).arrAt_eq_of_cover 3 (rowsOf m c) (flushed3_eq m c) (cover3 c)

/-- Row `8 i + a` of the result array is row `a` of the output block after the point `8 i + 7`. -/
theorem arrAt3_apply (c : Dev nD) (i a : Fin 8) (b : Fin 128) :
    ((dats m 0 c).arrAt 3 cfg0.N : S64x128.Idx → Elt F .f32)
        (ix2 (⟨8 * i.val + a.val, by have := i.isLt; have := a.isLt; omega⟩ : Fin 64) b)
      = outsAt m c (8 * i.val + 7) (by rw [N64]; have := i.isLt; omega) (ix2 a b) := by
  rw [arrAt3_eq]
  have hi := i.isLt
  have ha := a.isLt
  show outsAt m c _ _ _ = _
  refine outsAt_congr m c _ _ (by show 8 * ((8 * i.val + a.val) / 8) + 7 = 8 * i.val + 7; omega) ?_
  funext d
  apply Fin.ext
  match d with
  | ⟨0, _⟩ => show (8 * i.val + a.val) % 8 = a.val; omega
  | ⟨1, _⟩ => rfl

end Cert.KernelIdeal.Hand

end
-- ==== Proof.KiOut.lean ====
/-
  The output block after the body, as arithmetic.

  With the branch taken the body leaves the zero block plus the tile's contribution; with the branch not
  taken, what the block held plus the tile's contribution. The contribution is one pure function of the
  three input blocks: the block whose entry (0, 0) is the masked sum of squared differences over the tile
  and whose other entries are zero.
-/
import proofs.«146862_j47442208751734_2_alg».proof.Proof.KiFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The all-zero offsets of a whole-block access. -/
theorem hz2 : (![0, 0] : Fin 2 → Nat) = fun _ => 0 := funext fun a => by fin_cases a <;> rfl

/-- The tile's contribution to the output block, from the three input blocks. -/
abbrev contrib (x0 x1 : Vec F S512x512 .bf16) (x2 : Vec F S512x512 .f32) : FVec F S8x128 .f32 := k0_pay3 x0 x1 x2

/-- The zero block the taken branch stores. -/
abbrev zeroBlk : FVec F S8x128 .f32 := k0_pay2 (F := F)

/-- Branch not taken: the block ends as what it held plus the contribution. -/
theorem outB_eq (c : Dev nD) (i : grid0.Coords) (a2 : Memref sig .tc .vmem S512x512 .bf16) (h2 : a2.IsWhole) (a3 : Memref sig .tc .vmem S512x512 .bf16) (h3 : a3.IsWhole) (a4 : Memref sig .tc .vmem S512x512 .f32) (h4 : a4.IsWhole) (a5 : Memref sig .tc .vmem S8x128 .f32) (h5 : a5.IsWhole) (hc : ¬cond0 i)
    (x0 x1 : Vec F S512x512 .bf16) (x2 : Vec F S512x512 .f32) (xo : Vec F S8x128 .f32) :
    outB c i a2 h2 a3 h3 a4 h4 a5 h5 hc x0 x1 x2 xo = addf xo (contrib x0 x1 x2) := by
  unfold outB
  rw [View.read_writes_eq_canon _ _ _ (coverB c i a2 h2 a3 h3 a4 h4 a5 h5 hc x0 x1 x2 xo)]
  unfold runB
  dsimp only
  sl_unfold_words
  rw [View.canon_unit_zero hz2]
  unfold k0_pay1
  simp only [View.readAt_eq_ld, h2.read_unread, h3.read_unread, h4.read_unread, h5.read_unread,
    View.ld_unit_zero (S := S8x128) hz2, View.ld_unit_zero (S := S512x512) hz2, shapeCast_self]

/-- Branch taken: the block ends as the zero block plus the contribution (the body reads back the zeros it
    has just stored). -/
theorem outA_eq (c : Dev nD) (i : grid0.Coords) (a2 : Memref sig .tc .vmem S512x512 .bf16) (h2 : a2.IsWhole) (a3 : Memref sig .tc .vmem S512x512 .bf16) (h3 : a3.IsWhole) (a4 : Memref sig .tc .vmem S512x512 .f32) (h4 : a4.IsWhole) (a5 : Memref sig .tc .vmem S8x128 .f32) (h5 : a5.IsWhole) (hc : cond0 i)
    (x0 x1 : Vec F S512x512 .bf16) (x2 : Vec F S512x512 .f32) :
    outA c i a2 h2 a3 h3 a4 h4 a5 h5 hc x0 x1 x2 = addf (zeroBlk (F := F)) (contrib x0 x1 x2) := by
  unfold outA
  rw [View.read_writes_eq_canon _ _ _ (coverA c i a2 h2 a3 h3 a4 h4 a5 h5 hc x0 x1 x2)]
  unfold runA
  dsimp only
  sl_unfold_words
  rw [View.canon_cons_unit_zero (S := S8x128) hz2, View.readCov_unit_zero (S := S8x128) _ hz2]
  unfold k0_pay1
  simp only [View.readAt_eq_ld, h2.read_unread, h3.read_unread, h4.read_unread,
    View.ld_unit_zero (S := S512x512) hz2, shapeCast_self]

end Cert.KernelIdeal.Hand

end
-- ==== Proof.KiOutsAt.lean ====
/-
  The running output block, point by point, as arithmetic: at the start of a row of the grid it is the
  zero block plus the tile's contribution, at every other point what the point before left plus the tile's
  contribution.
-/
import proofs.«146862_j47442208751734_2_alg».proof.Proof.KiOut

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At a point divisible by 8. -/
theorem outsAt_A_eq (c : Dev nD) (t : Fin cfg0.N) (h0 : t.val % 8 = 0) :
    outsAt m c t.val t.isLt = addf (zeroBlk (F := F)) (contrib (iblk m c 0 t) (iblk m c 1 t) (iblk m c 2 t)) :=
  (outsAt_A m c t h0).trans
    (outA_eq c (grid0.coords t) (ms0 t) (hs0 t) (ms1 t) (hs1 t) (ms2 t) (hs2 t) (ms3 t) (hs3 t) ((hcond0 t).mpr h0)
      (iblk m c 0 t) (iblk m c 1 t) (iblk m c 2 t))

/-- At any other point. -/
theorem outsAt_B_eq (c : Dev nD) (t : Fin cfg0.N) (h0 : ¬t.val % 8 = 0) :
    outsAt m c t.val t.isLt
      = addf (outsAt m c (t.val - 1) (Nat.lt_of_le_of_lt (Nat.sub_le _ _) t.isLt))
          (contrib (iblk m c 0 t) (iblk m c 1 t) (iblk m c 2 t)) :=
  (outsAt_B m c t h0).trans
    (outB_eq c (grid0.coords t) (ms0 t) (hs0 t) (ms1 t) (hs1 t) (ms2 t) (hs2 t) (ms3 t) (hs3 t) (fun h => h0 ((hcond0 t).mp h))
      (iblk m c 0 t) (iblk m c 1 t) (iblk m c 2 t) (outsAt m c (t.val - 1) (Nat.lt_of_le_of_lt (Nat.sub_le _ _) t.isLt)))

end Cert.KernelIdeal.Hand

end
-- ==== Proof.MaskedSqSpec.lean ====
/-
  The quantity both programs compute, written entry by entry over two abstract arrays.

  `X` is a 4096 × 512 array of extended reals (the row-normalised features) and `D` a 4096 × 4096 array (the
  table looked up at a pair of labels). For a pair of rows `(r, c)`:
    * the similarity is the inner product of rows `r` and `c` of `X`;
    * the distance is one minus the similarity;
    * the pair counts when both the looked-up value and the distance are below the threshold 0.7 (the conjunction of
      the two one-bit comparisons, read as the number 0 or 1);
    * the term is that 0/1 weight times the square of (distance − looked-up value).
  `total` is the sum of the terms over all pairs and `mean` the zero word plus that total, divided by 2^24
  (= 4096 · 4096). The float words stay words: they are the same on both sides and are never evaluated.
-/
import Idealize.ShloMosaic.PureOps.Ideal
import Idealize.ShloMosaic.Lib.ValueIdx

noncomputable section

namespace Cert.MaskedSq

open Idealize.ShloMosaic Idealize.ShloMosaic.ValueIdx

/-- Inner product of rows `r` and `c` of `X`. -/
def sim (X : (⟨2, ![4096, 512]⟩ : Shape).Idx → EReal) (r c : Fin 4096) : EReal :=
  ∑ k : Fin 512, X (ix2 r k) * X (ix2 c k)

/-- One minus the inner product. -/
def dist (X : (⟨2, ![4096, 512]⟩ : Shape).Idx → EReal) (r c : Fin 4096) : EReal :=
  Ideal.ofBits .f32 0x3F800000#32 - sim X r c

/-- The one-bit weight of the pair: both the looked-up value and the distance lie below the threshold. -/
def keep (X : (⟨2, ![4096, 512]⟩ : Shape).Idx → EReal) (D : (⟨2, ![4096, 4096]⟩ : Shape).Idx → EReal)
    (r c : Fin 4096) : BitVec 1 :=
  IntOp.andi (Ideal.cmp .olt (D (ix2 r c)) (Ideal.ofBits .f32 0x3F333333#32))
    (Ideal.cmp .olt (dist X r c) (Ideal.ofBits .f32 0x3F333333#32))

/-- The term of the pair `(r, c)`: weight × (distance − looked-up value)². -/
def entry (X : (⟨2, ![4096, 512]⟩ : Shape).Idx → EReal) (D : (⟨2, ![4096, 4096]⟩ : Shape).Idx → EReal)
    (r c : Fin 4096) : EReal :=
  (((keep X D r c).toNat : ℝ) : EReal)
    * ((dist X r c - D (ix2 r c)) * (dist X r c - D (ix2 r c)))

/-- The sum of the terms over all pairs of rows. -/
def total (X : (⟨2, ![4096, 512]⟩ : Shape).Idx → EReal) (D : (⟨2, ![4096, 4096]⟩ : Shape).Idx → EReal) : EReal :=
  ∑ r : Fin 4096, ∑ c : Fin 4096, entry X D r c

/-- The result: (zero word + total) divided by the word for 2^24. -/
def mean (X : (⟨2, ![4096, 512]⟩ : Shape).Idx → EReal) (D : (⟨2, ![4096, 4096]⟩ : Shape).Idx → EReal) : EReal :=
  Ideal.div (Ideal.ofBits .f32 0x00000000#32 + total X D) (Ideal.ofBits .f32 0x4B800000#32)

end Cert.MaskedSq

end
-- ==== Proof.SpecBlocks.lean ====
/-
  Two small facts used when the total is computed tile by tile.

  First, the total of the specification regrouped into the 8 × 8 tiles of 512 × 512 pairs. Second, the weight of a
  pair may be produced from its one-bit word in two ways — read directly as a natural number, or first widened to a
  32-bit word and then read as a signed integer — and both give 0 for the word 0 and 1 for the word 1.
-/
import proofs.«146862_j47442208751734_2_alg».proof.Proof.MaskedSqSpec
import proofs.«146862_j47442208751734_2_alg».proof.Proof.SumByBlocks

noncomputable section

namespace Cert.MaskedSq

open Idealize.ShloMosaic Idealize.ShloMosaic.ValueIdx

/-- The total is the sum, over the 8 × 8 tiles, of the sums of the terms of the pairs inside each tile. -/
theorem total_blocks (X : (⟨2, ![4096, 512]⟩ : Shape).Idx → EReal) (D : (⟨2, ![4096, 4096]⟩ : Shape).Idx → EReal) :
    total X D = ∑ i : Fin 8, ∑ j : Fin 8, ∑ p : Fin 512, ∑ q : Fin 512, entry X D (blk i p) (blk j q) :=
  sum_sum_blk fun r c => entry X D r c

/-- A one-bit word widened with zeros to 32 bits and read as a signed integer is the word read as a natural number:
    the widened word is 0 or 1, far from the sign bit. -/
theorem toInt_setWidth_bit (b : BitVec 1) : ((b.setWidth 32).toInt : ℝ) = (b.toNat : ℝ) := by
  rcases BitVec.eq_zero_or_eq_one b with h | h <;> subst h <;> norm_num

/-- So converting the widened word as a signed integer gives the same extended real as converting the bit as an
    unsigned one. -/
theorem sitofp_extui_bit (b : BitVec 1) :
    (FloatOps.sitofp (F := Ideal) .f32 (b.setWidth 32) : EReal) = ((b.toNat : ℝ) : EReal) := by
  show (((b.setWidth 32).toInt : ℝ) : EReal) = _
  rw [toInt_setWidth_bit]

end Cert.MaskedSq

end
-- ==== Proof.TileSpec.lean ====
/-
  One 512 × 512 tile of pairs, computed from the three blocks a tile needs, and its agreement with the specification.

  A tile is given two blocks of 512 rows of features, `x0` (the rows of the pairs' first members) and `x1` (the rows
  of the second members), and the 512 × 512 block `x2` of looked-up values. The term of position `(p, q)` is formed
  as in the specification, with two differences of arrangement only: the weight is the one-bit word widened to 32 bits
  and read as a signed integer, and the product is taken as (weight · difference) · difference. If the three blocks are
  the blocks `i`, `j` and `(i, j)` of the full arrays, the term at `(p, q)` is the specification's term of the pair
  `(512 i + p, 512 j + q)`: the widened bit is 0 or 1 either way, and multiplication of extended reals is associative.
-/
import proofs.«146862_j47442208751734_2_alg».proof.Proof.SpecBlocks

noncomputable section

namespace Cert.MaskedSq

open Idealize.ShloMosaic Idealize.ShloMosaic.ValueIdx

/-- Inner product of row `p` of the first block with row `q` of the second. -/
def tileSim (x0 x1 : (⟨2, ![512, 512]⟩ : Shape).Idx → EReal) (p q : Fin 512) : EReal :=
  ∑ k : Fin 512, x0 (ix2 p k) * x1 (ix2 q k)

/-- One minus that inner product. -/
def tileDist (x0 x1 : (⟨2, ![512, 512]⟩ : Shape).Idx → EReal) (p q : Fin 512) : EReal :=
  Ideal.ofBits .f32 0x3F800000#32 - tileSim x0 x1 p q

/-- The one-bit weight at `(p, q)`. -/
def tileKeep (x0 x1 x2 : (⟨2, ![512, 512]⟩ : Shape).Idx → EReal) (p q : Fin 512) : BitVec 1 :=
  IntOp.andi (Ideal.cmp .olt (x2 (ix2 p q)) (Ideal.ofBits .f32 0x3F333333#32))
    (Ideal.cmp .olt (tileDist x0 x1 p q) (Ideal.ofBits .f32 0x3F333333#32))

/-- The term at `(p, q)`: (weight · difference) · difference, the weight read through a 32-bit signed word. -/
def tileEntry (x0 x1 x2 : (⟨2, ![512, 512]⟩ : Shape).Idx → EReal) (p q : Fin 512) : EReal :=
  (((((tileKeep x0 x1 x2 p q).setWidth 32).toInt : ℝ) : EReal) * (tileDist x0 x1 p q - x2 (ix2 p q)))
    * (tileDist x0 x1 p q - x2 (ix2 p q))

/-- The tile's total: rows outside, columns inside. -/
def tileTotal (x0 x1 x2 : (⟨2, ![512, 512]⟩ : Shape).Idx → EReal) : EReal :=
  ∑ p : Fin 512, ∑ q : Fin 512, tileEntry x0 x1 x2 p q

section Bridge

variable (X : (⟨2, ![4096, 512]⟩ : Shape).Idx → EReal) (D : (⟨2, ![4096, 4096]⟩ : Shape).Idx → EReal) (i j : Fin 8)
  (x0 x1 x2 : (⟨2, ![512, 512]⟩ : Shape).Idx → EReal)
  (h0 : ∀ (p : Fin 512) (k : Fin 512), x0 (ix2 p k) = X (ix2 (blk i p) k))
  (h1 : ∀ (q : Fin 512) (k : Fin 512), x1 (ix2 q k) = X (ix2 (blk j q) k))
  (h2 : ∀ (p q : Fin 512), x2 (ix2 p q) = D (ix2 (blk i p) (blk j q)))

include h0 h1 in
theorem tileSim_eq_sim (p q : Fin 512) : tileSim x0 x1 p q = sim X (blk i p) (blk j q) :=
  Finset.sum_congr rfl fun k _ => by rw [h0, h1]

include h0 h1 in
theorem tileDist_eq_dist (p q : Fin 512) : tileDist x0 x1 p q = dist X (blk i p) (blk j q) := by
  unfold tileDist dist
  rw [tileSim_eq_sim X i j x0 x1 h0 h1]

include h0 h1 h2 in
theorem tileKeep_eq_keep (p q : Fin 512) : tileKeep x0 x1 x2 p q = keep X D (blk i p) (blk j q) := by
  unfold tileKeep keep
  rw [tileDist_eq_dist X i j x0 x1 h0 h1, h2]

include h0 h1 h2 in
/-- On the blocks of the full arrays the tile's term is the specification's term of the corresponding pair. -/
theorem tileEntry_eq_entry (p q : Fin 512) : tileEntry x0 x1 x2 p q = entry X D (blk i p) (blk j q) := by
  unfold tileEntry entry
  rw [toInt_setWidth_bit, tileKeep_eq_keep X D i j x0 x1 x2 h0 h1 h2, tileDist_eq_dist X i j x0 x1 h0 h1, h2, mul_assoc]

include h0 h1 h2 in
/-- So the tile's total is the sum of the specification's terms over the pairs of the tile. -/
theorem tileTotal_eq :
    tileTotal x0 x1 x2 = ∑ p : Fin 512, ∑ q : Fin 512, entry X D (blk i p) (blk j q) :=
  Finset.sum_congr rfl fun p _ => Finset.sum_congr rfl fun q _ =>
    tileEntry_eq_entry X D i j x0 x1 x2 h0 h1 h2 p q

end Bridge

end Cert.MaskedSq

end
-- ==== Proof.TileContribution.lean ====
/-
  What one grid step contributes, read entry by entry.

  At a grid step the body holds two blocks of 512 feature rows, `x0` and `x1`, and a 512 × 512 block `x2` of looked-up
  values. Its arithmetic is one pure term: the matrix product of `x0` with the transpose of `x1` (so its entry `(p, q)`
  is the inner product of row `p` of `x0` with row `q` of `x1`), one minus it, the two threshold comparisons joined into
  a bit, the bit widened and converted, the weighted square, then the sum along each row, the sum of those 512 row sums,
  and finally an 8 × 128 array that carries this total in its corner `(0, 0)` and the zero word everywhere else.
  Read at an entry `(a, b)` the term is therefore the tile's total when `a = b = 0` and the zero word otherwise.

  Each step that is not entry-by-entry gets a small lemma at explicit coordinates: the matrix product, the two sums along
  one axis (a sum along an axis, read at the remaining coordinate, is the sum over that axis's coordinate), the change of
  shape from a list of 512 numbers to a 512 × 1 column, and the test "both coordinates are zero".
-/
import proofs.«146862_j47442208751734_2_alg».proof.Proof.Gen.KernelIdeal.Skeleton
import Idealize.ShloMosaic.Lib.ValueLayout
import Idealize.ShloMosaic.PureOps.Ideal.Laws
import proofs.«146862_j47442208751734_2_alg».proof.Proof.TileSpec

noncomputable section

namespace Cert.MaskedSq.Tile

open Cert.KernelIdeal Cert.KernelIdeal.Gen Idealize.ShloMosaic Idealize.ShloMosaic.ValueIdx Cert.MaskedSq

/-- The product of `u` with the transpose of `w`, accumulated from zero, has at `(p, q)` the inner product of row `p`
    of `u` and row `q` of `w`: the contraction runs over the one shared coordinate `k`, the left factor is read at
    `(p, k)`, the right factor at `(k, q)` of the transpose, which is `(q, k)` of `w`. -/
theorem matmul_tile_apply (u w : FVec Ideal S512x512 .bf16) (ht : S512x512.Transposes [1, 0] S512x512) (p q : Fin 512) :
    matmul dot_S512x512_S512x512_S512x512_1_0_0_1_n_n none u (transpose S512x512 [1, 0] w ht)
        (constant (F := Ideal) S512x512 .f32 0x00000000#32) (ix2 p q)
      = ∑ k : Fin 512, u (ix2 p k) * w (ix2 q k) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ =>
      show (dot_S512x512_S512x512_S512x512_1_0_0_1_n_n.lhsIdx (ix2 p q) _ 0).val = p.val
      unfold DotDims.lhsIdx
      rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
      rfl
    | ⟨1, _⟩ => exact (dot_S512x512_S512x512_S512x512_1_0_0_1_n_n.lhsIdx_val_of_single rfl (ix2 p q) _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (dot_S512x512_S512x512_S512x512_1_0_0_1_n_n.rhsIdx_val_of_single rfl (ix2 p q) _).trans hk
    | ⟨1, _⟩ =>
      show (dot_S512x512_S512x512_S512x512_1_0_0_1_n_n.rhsIdx (ix2 p q) _ 1).val = q.val
      unfold DotDims.rhsIdx
      rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
      rfl)
  rw [el, er, transpose_ix2_apply]

/-- Putting the column coordinate `q` back into the row index `p` gives the pair `(p, q)`. -/
theorem lift_row (h : S512x512.Reduces [1] S512) (p q : Fin 512) : h.lift (ix1 p) q = ix2 p q :=
  funext fun a => Fin.ext (by match a with | ⟨0, _⟩ => rfl | ⟨1, _⟩ => rfl)

/-- The sum along the second axis, read at row `p`, is the sum over the columns of that row. -/
theorem rowsum_apply (w : FVec Ideal S512x512 .f32) (h : S512x512.Reduces [1] S512) (hφ : FKind.Formats .f32)
    (hacc : (0x00000000#32 : BitVec 32) = FKind.add.neutral .f32 hφ) (p : Fin 512) :
    multiReduction .add [1] S512 w 0x00000000#32 h hφ hacc (ix1 p) = ∑ q : Fin 512, w (ix2 p q) := by
  refine (Ideal.multiReduction_add_single w 0x00000000#32 h hφ hacc (ix1 p)).trans ?_
  exact Finset.sum_congr rfl fun q _ => congrArg w (lift_row h p q)

/-- Putting the row coordinate `p` back beside the one column gives the pair `(p, u)`. -/
theorem lift_col (h : S512x1.Reduces [0] S1) (u : Fin 1) (p : Fin 512) : h.lift (ix1 u) p = ix2 p u :=
  funext fun a => Fin.ext (by match a with | ⟨0, _⟩ => rfl | ⟨1, _⟩ => rfl)

/-- The sum of a 512 × 1 column along its first axis is the sum of its 512 entries. -/
theorem colsum_apply (v : FVec Ideal S512x1 .f32) (h : S512x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ p : Fin 512, v (ix2 p u) := by
  refine (Ideal.multiReduction_add_single v 0x00000000#32 h hφ hacc (ix1 u)).trans ?_
  exact Finset.sum_congr rfl fun p _ => congrArg v (lift_col h u p)

/-- A list of 512 values viewed as a 512 × 1 column has at `(p, 0)` the value number `p`: both sit at position `p`
    when the entries are counted row by row. -/
theorem col_cast_apply {α : Type} (v : (⟨1, ![512]⟩ : Shape).Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_one, Shape.rowMajor_val_two]
    show p.val = p.val * 1 + u.val
    omega)

/-- A number below 2^32, written as a 32-bit word, equals the zero word exactly when it is zero. -/
theorem cmpi_eq_zero (n : Nat) (hn : n < 4294967296) :
    IntOp.cmpi .eq (BitVec.ofNat 32 n) 0#32 = if n = 0 then 1#1 else 0#1 := by
  by_cases h : n = 0
  · subst h; rfl
  · rw [if_neg h]
    have hne : BitVec.ofNat 32 n ≠ 0#32 := by
      intro hh
      have := congrArg BitVec.toNat hh
      simp at this
      omega
    show BitVec.ofBool (BitVec.ofNat 32 n == 0#32) = 0#1
    rw [beq_eq_false_iff_ne.mpr hne]
    rfl

/-- The test "row coordinate is 0 and column coordinate is 0" as a bit. -/
theorem corner_bit (a : Fin 8) (b : Fin 128) :
    IntOp.andi (IntOp.cmpi .eq (BitVec.ofNat 32 a.val) 0#32) (IntOp.cmpi .eq (BitVec.ofNat 32 b.val) 0#32)
      = if a.val = 0 ∧ b.val = 0 then 1#1 else 0#1 := by
  rw [cmpi_eq_zero a.val (by omega), cmpi_eq_zero b.val (by omega)]
  by_cases ha : a.val = 0 <;> by_cases hb : b.val = 0 <;> simp [ha, hb, IntOp.andi]

/-- Summing a 512 × 512 array `w` along its rows, then summing the row sums, and placing the result in the corner of an
    8 × 128 array of zero words: at `(a, b)` this is the sum of all of `w` when `a = b = 0`, the zero word otherwise. -/
theorem corner_apply (w : FVec Ideal S512x512 .f32)
    (hr1 : S512x512.Reduces [1] S512) (hφ1 : FKind.Formats .f32) (hacc1 : (0x00000000#32 : BitVec 32) = FKind.add.neutral .f32 hφ1)
    (hc1 : S512.ShapeCasts S512x1)
    (hr0 : S512x1.Reduces [0] S1) (hφ0 : FKind.Formats .f32) (hacc0 : (0x00000000#32 : BitVec 32) = FKind.add.neutral .f32 hφ0)
    (hc2 : S1.ShapeCasts S1x1) (hi0 : S8x128.Iotas .tc 32 [0]) (hi1 : S8x128.Iotas .tc 32 [1]) (hb : S1x1.Broadcasts S8x128)
    (a : Fin 8) (b : Fin 128) :
    select (andi (cmpi .eq (iota .tc S8x128 32 [0] hi0) (broadcast S8x128 0#32))
                 (cmpi .eq (iota .tc S8x128 32 [1] hi1) (broadcast S8x128 0#32)))
        (broadcastTo S8x128
          (shapeCast S1x1
            (multiReduction .add [0] S1
              (shapeCast S512x1 (multiReduction .add [1] S512 w 0x00000000#32 hr1 hφ1 hacc1) hc1)
              0x00000000#32 hr0 hφ0 hacc0) hc2) hb)
        (broadcast S8x128 (Scalar.ofBits (F := Ideal) .f32 0x00000000#32)) (ix2 a b)
      = if a.val = 0 ∧ b.val = 0 then ∑ p : Fin 512, ∑ q : Fin 512, w (ix2 p q) else Ideal.ofBits .f32 0x00000000#32 := by
  show Scalar.select (IntOp.andi (IntOp.cmpi .eq (iota .tc S8x128 32 [0] hi0 (ix2 a b)) 0#32)
      (IntOp.cmpi .eq (iota .tc S8x128 32 [1] hi1 (ix2 a b)) 0#32)) _ (Ideal.ofBits .f32 0x00000000#32) = _
  rw [iota_single_apply, iota_single_apply]
  show Scalar.select (IntOp.andi (IntOp.cmpi .eq (BitVec.ofNat 32 a.val) 0#32) (IntOp.cmpi .eq (BitVec.ofNat 32 b.val) 0#32)) _ _ = _
  rw [corner_bit]
  by_cases hab : a.val = 0 ∧ b.val = 0
  · rw [if_pos hab, if_pos hab, select_one]
    refine (broadcastTo_apply _ hb (ix2 a b) (ix2 (0 : Fin 1) (0 : Fin 1)) fun ax => ?_).trans ?_
    · match ax with
      | ⟨0, _⟩ => rfl
      | ⟨1, _⟩ => rfl
    refine (shapeCast_a_1a_apply _ hc2 (0 : Fin 1) (0 : Fin 1)).trans ?_
    refine (colsum_apply _ hr0 hφ0 hacc0 (0 : Fin 1)).trans ?_
    refine Finset.sum_congr rfl fun p _ => ?_
    refine (col_cast_apply _ hc1 p (0 : Fin 1)).trans ?_
    exact rowsum_apply w hr1 hφ1 hacc1 p
  · rw [if_neg hab, if_neg hab, select_zero]

/-- The body's contribution at `(a, b)`: the tile's total in the corner, the zero word elsewhere. The weighted square
    inside is, entry by entry, the tile's term: with the matrix product read as the inner product, the remaining
    operations act on each entry separately and are, on the extended reals, the operations the term is written in. -/
theorem contribution_apply (x0 x1 : Vec Ideal S512x512 .bf16) (x2 : Vec Ideal S512x512 .f32) (a : Fin 8) (b : Fin 128) :
    k0_pay3 (F := Ideal) x0 x1 x2 (ix2 a b)
      = if a.val = 0 ∧ b.val = 0 then tileTotal x0 x1 x2 else Ideal.ofBits .f32 0x00000000#32 := by
  unfold k0_pay3
  simp only [shapeCast_self]
  refine (corner_apply _ _ _ _ _ _ _ _ _ _ _ _ a b).trans ?_
  by_cases hab : a.val = 0 ∧ b.val = 0
  · rw [if_pos hab, if_pos hab]
    unfold tileTotal
    refine Finset.sum_congr rfl fun p _ => Finset.sum_congr rfl fun q _ => ?_
    unfold tileEntry tileKeep tileDist tileSim
    rw [← matmul_tile_apply x0 x1 Facts₀.transposes_S512x512_p1_0_S512x512 p q]
    rfl
  · rw [if_neg hab, if_neg hab]

end Cert.MaskedSq.Tile

end
-- ==== Proof.RowAccum.lean ====
/-
  One row of the grid, accumulated.

  Along a row `i` of the 8 × 8 grid the output block is first set to zero plus the first tile's contribution, and every
  later step adds its own tile's contribution to what the step before left. A contribution is the tile's total in the
  corner `(0, 0)` and zero elsewhere. So after step `n` of the row the block holds, in its corner, the sum of the totals
  of tiles `(i, 0) … (i, n)`, and zero everywhere else: the corner adds up, and zero plus zero stays zero. After the
  last step this is the sum over all eight tiles of the row; with each tile's blocks read off the two full arrays, the
  tile's total is the sum of the specification's terms over the pairs of that tile.
-/
import proofs.«146862_j47442208751734_2_alg».proof.Proof.KiOutsAt
import proofs.«146862_j47442208751734_2_alg».proof.Proof.KiBlocks
import proofs.«146862_j47442208751734_2_alg».proof.Proof.TileContribution

noncomputable section

namespace Cert.MaskedSq.Acc

open Idealize.ShloMosaic Idealize.ShloMosaic.TcCoe Idealize.ShloMosaic.ValueIdx
open Idealize.SL Idealize.SL.Sem
open Cert.KernelIdeal Cert.KernelIdeal.Gen Cert.KernelIdeal.Hand
open Cert.MaskedSq Cert.MaskedSq.Tile

/-- The sum of the specification's terms over the pairs of tile `(i, k)`, for `k` a natural number (zero past the row). -/
def rowTerm (X : (⟨2, ![4096, 512]⟩ : Shape).Idx → EReal) (D : (⟨2, ![4096, 4096]⟩ : Shape).Idx → EReal) (i : Fin 8)
    (k : ℕ) : EReal :=
  if h : k < 8 then ∑ p : Fin 512, ∑ q : Fin 512, entry X D (blk i p) (blk ⟨k, h⟩ q) else 0

variable (mI : (ℓ : Loc nD τ sig) → Buf (Elt Ideal) ℓ) (c : Dev nD)

/-- The running block depends on the position only, not on how its bound is proved. -/
theorem outsAt_congr (n n' : ℕ) (e : n = n') (h : n < cfg0.N) (h' : n' < cfg0.N) :
    outsAt mI c n h = outsAt mI c n' h' := by
  subst e; rfl

section Row

variable (X : (⟨2, ![4096, 512]⟩ : Shape).Idx → EReal) (D : (⟨2, ![4096, 4096]⟩ : Shape).Idx → EReal) (i : Fin 8)
  (hX0 : ∀ (j : Fin 8) (p k : Fin 512), (iblk mI c 0 (pt i j) : Vec Ideal S512x512 .bf16) (ix2 p k) = X (ix2 (blk i p) k))
  (hX1 : ∀ (j : Fin 8) (q k : Fin 512), (iblk mI c 1 (pt i j) : Vec Ideal S512x512 .bf16) (ix2 q k) = X (ix2 (blk j q) k))
  (hD : ∀ (j : Fin 8) (p q : Fin 512), (iblk mI c 2 (pt i j) : Vec Ideal S512x512 .f32) (ix2 p q) = D (ix2 (blk i p) (blk j q)))

include hX0 hX1 hD in
/-- The contribution of tile `(i, j)` at `(a, b)`: the tile's sum of terms in the corner, zero elsewhere. -/
theorem contrib_pt (j : Fin 8) (a : Fin 8) (b : Fin 128) :
    contrib (iblk mI c 0 (pt i j)) (iblk mI c 1 (pt i j)) (iblk mI c 2 (pt i j)) (ix2 a b)
      = if a.val = 0 ∧ b.val = 0 then rowTerm X D i j.val else 0 := by
  refine (contribution_apply (iblk mI c 0 (pt i j)) (iblk mI c 1 (pt i j)) (iblk mI c 2 (pt i j)) a b).trans ?_
  rw [Ideal.ofBits_zero_f32, tileTotal_eq X D i j _ _ _ (hX0 j) (hX1 j) (hD j)]
  unfold rowTerm
  rw [dif_pos j.isLt]

include hX0 hX1 hD in
/-- After step `n` of row `i`: the sum of the first `n + 1` tiles in the corner, zero elsewhere. -/
theorem outsAt_row (a : Fin 8) (b : Fin 128) : ∀ (n : ℕ) (hn : n < 8),
    outsAt mI c (pt i ⟨n, hn⟩).val (pt i ⟨n, hn⟩).isLt (ix2 a b)
      = if a.val = 0 ∧ b.val = 0 then ∑ k ∈ Finset.range (n + 1), rowTerm X D i k else 0
  | 0, hn => by
    rw [outsAt_A_eq mI c (pt i ⟨0, hn⟩) (pt_mod i ⟨0, hn⟩)]
    show ((zeroBlk (F := Ideal)) (ix2 a b) + contrib (F := Ideal) _ _ _ (ix2 a b) : EReal) = _
    rw [contrib_pt mI c X D i hX0 hX1 hD ⟨0, hn⟩ a b]
    show (Ideal.ofBits .f32 0x00000000#32 + _ : EReal) = _
    rw [Ideal.ofBits_zero_f32, zero_add, Finset.sum_range_one]
  | n + 1, hn => by
    have h0 : ¬(pt i ⟨n + 1, hn⟩).val % 8 = 0 := by rw [pt_mod]; exact Nat.succ_ne_zero n
    rw [outsAt_B_eq mI c (pt i ⟨n + 1, hn⟩) h0]
    show (outsAt mI c _ _ (ix2 a b) + contrib (F := Ideal) _ _ _ (ix2 a b) : EReal) = _
    rw [contrib_pt mI c X D i hX0 hX1 hD ⟨n + 1, hn⟩ a b,
      outsAt_congr mI c ((pt i ⟨n + 1, hn⟩).val - 1) (pt i ⟨n, Nat.lt_of_succ_lt hn⟩).val
        (by rw [pt_val, pt_val]; rfl) _ (pt i ⟨n, Nat.lt_of_succ_lt hn⟩).isLt,
      outsAt_row a b n (Nat.lt_of_succ_lt hn)]
    by_cases hab : a.val = 0 ∧ b.val = 0
    · rw [if_pos hab, if_pos hab, if_pos hab, Finset.sum_range_succ (fun k => rowTerm X D i k) (n + 1)]
    · rw [if_neg hab, if_neg hab, if_neg hab, add_zero]

include hX0 hX1 hD in
/-- After the last step of row `i`: the sum over the row's eight tiles in the corner, zero elsewhere. -/
theorem outsAt_row_end (a : Fin 8) (b : Fin 128) (h : 8 * i.val + 7 < cfg0.N) :
    outsAt mI c (8 * i.val + 7) h (ix2 a b)
      = if a.val = 0 ∧ b.val = 0 then
          ∑ j : Fin 8, ∑ p : Fin 512, ∑ q : Fin 512, entry X D (blk i p) (blk j q)
        else 0 := by
  refine (outsAt_row mI c X D i hX0 hX1 hD a b 7 (by omega)).trans ?_
  rw [Finset.sum_range (fun k => rowTerm X D i k)]
  refine if_congr Iff.rfl (Finset.sum_congr rfl fun j _ => ?_) rfl
  unfold rowTerm
  rw [dif_pos j.isLt]

end Row

/-- The same with the two arrays spelled: the normalised features and the looked-up table as the region finds them. -/
theorem outsAt_row_end_V (i a : Fin 8) (b : Fin 128) (h : 8 * i.val + 7 < cfg0.N) :
    outsAt mI c (8 * i.val + 7) h (ix2 a b)
      = if a.val = 0 ∧ b.val = 0 then
          ∑ j : Fin 8, ∑ p : Fin 512, ∑ q : Fin 512,
            entry (V mI c main_v5 : S4096x512.Idx → Elt Ideal .bf16) (V mI c main_v23 : S4096x4096.Idx → Elt Ideal .f32)
              (blk i p) (blk j q)
        else 0 :=
  outsAt_row_end mI c _ _ i (fun j p k => iblk0_pt mI c i j p k) (fun j q k => iblk1_pt mI c i j q k)
    (fun j p q => iblk2_pt mI c i j p q) a b h

end Cert.MaskedSq.Acc

end
-- ==== Proof.SparseTotal.lean ====
/-
  The total of an array that is zero except at one corner of each of its eight row groups.

  A 64 × 128 array is read as eight groups of eight rows. If, in group `i`, only the entry in the group's first row
  and first column can be non-zero, and its value there is `g i`, then the sum of all entries of the array is the sum
  of the eight values `g i`: every other term is zero. Row `8 · i + a` is row `a` of group `i`.
-/
import Idealize.ShloMosaic.Lib.ValueIdx

noncomputable section

namespace Cert.MaskedSq

open Idealize.ShloMosaic Idealize.ShloMosaic.ValueIdx

/-- Row `a` of group `i`: the row `8 · i + a`. -/
def row8 (i a : Fin 8) : Fin 64 := ⟨8 * i.val + a.val, by omega⟩

@[simp] theorem row8_val (i a : Fin 8) : (row8 i a).val = 8 * i.val + a.val := rfl

/-- Quotient and remainder by 8 invert `row8`. -/
def row8Equiv : Fin 8 × Fin 8 ≃ Fin 64 where
  toFun x := row8 x.1 x.2
  invFun r := (⟨r.val / 8, by omega⟩, ⟨r.val % 8, by omega⟩)
  left_inv := by
    rintro ⟨i, a⟩
    refine Prod.ext (Fin.ext ?_) (Fin.ext ?_)
    · show (8 * i.val + a.val) / 8 = i.val
      omega
    · show (8 * i.val + a.val) % 8 = a.val
      omega
  right_inv := by
    intro r
    refine Fin.ext ?_
    show 8 * (r.val / 8) + r.val % 8 = r.val
    omega

/-- A sum over the 64 rows is the sum over the 8 groups of the sums over each group's rows. -/
theorem sum_row8 {M : Type*} [AddCommMonoid M] (g : Fin 64 → M) :
    ∑ r : Fin 64, g r = ∑ i : Fin 8, ∑ a : Fin 8, g (row8 i a) := by
  rw [← Equiv.sum_comp row8Equiv g, Fintype.sum_prod_type]
  rfl

/-- Only the corner of each group contributes. -/
theorem sum_corners {M : Type*} [AddCommMonoid M] (OUT : (⟨2, ![64, 128]⟩ : Shape).Idx → M) (g : Fin 8 → M)
    (h : ∀ (i : Fin 8) (a : Fin 8) (b : Fin 128),
      OUT (ix2 (⟨8 * i.val + a.val, by omega⟩ : Fin 64) b) = if a.val = 0 ∧ b.val = 0 then g i else 0) :
    ∑ idx : (⟨2, ![64, 128]⟩ : Shape).Idx, OUT idx = ∑ i : Fin 8, g i := by
  rw [sum_idx2, sum_row8]
  refine Finset.sum_congr rfl fun i _ => ?_
  rw [Finset.sum_eq_single (0 : Fin 8), Finset.sum_eq_single (0 : Fin 128)]
  · exact (h i 0 0).trans (if_pos ⟨rfl, rfl⟩)
  · intro b _ hb
    exact (h i 0 b).trans (if_neg fun hh => hb (Fin.ext hh.2))
  · intro hn
    exact absurd (Finset.mem_univ _) hn
  · intro a _ ha
    exact Finset.sum_eq_zero fun b _ => (h i a b).trans (if_neg fun hh => ha (Fin.ext hh.1))
  · intro hn
    exact absurd (Finset.mem_univ _) hn

/-- The same on the extended reals with the zero word in front, as a sum from the zero word gives it. -/
theorem zero_add_sum_corners (OUT : (⟨2, ![64, 128]⟩ : Shape).Idx → EReal) (g : Fin 8 → EReal)
    (h : ∀ (i : Fin 8) (a : Fin 8) (b : Fin 128),
      OUT (ix2 (⟨8 * i.val + a.val, by omega⟩ : Fin 64) b) = if a.val = 0 ∧ b.val = 0 then g i else 0) :
    Ideal.ofBits .f32 0x00000000#32 + ∑ idx : (⟨2, ![64, 128]⟩ : Shape).Idx, OUT idx
      = Ideal.ofBits .f32 0x00000000#32 + ∑ i : Fin 8, g i := by
  rw [sum_corners OUT g h]

end Cert.MaskedSq

end
-- ==== Proof.RefIsSpec.lean ====
/-
  The plain program computes the specified mean.

  Reading the plain program one stage at a time at a pair of rows `(r, c)`: its product of the normalised array with
  its own transpose, read at `(r, c)`, is the inner product of rows `r` and `c` (the transpose exchanges the two
  coordinates of the second factor, so its entry `(k, c)` is entry `(c, k)` of the array itself); one minus it is the
  distance; the two comparisons against the threshold, joined and read as 0 or 1, are the weight; and the weighted square
  of the difference is the term of the pair. The final stage adds all 4096 × 4096 terms to the zero word — a sum over
  pairs of coordinates, which is the double sum over the two coordinates — and divides by the word for 2^24.

  The normalised array and the looked-up table are left as the two stages that produce them: nothing here looks
  inside either.
-/
import proofs.«146862_j47442208751734_2_alg».proof.Proof.Gen.ReferenceIdeal.Read
import proofs.«146862_j47442208751734_2_alg».proof.Proof.MaskedSqSpec

noncomputable section

namespace Cert.MaskedSq.Ref

open Cert.ReferenceIdeal Cert.ReferenceIdeal.Read Idealize.ShloMosaic Idealize.ShloMosaic.ValueIdx

/-- The left factor of the product at `(r, c)`, `k`: entry `(r, k)`. -/
theorem left_index (r c : Fin 4096) (k : Fin 512) : lidx_main_v6 (ix2 r c) k = ix2 r k :=
  funext fun a => Fin.ext (by match a with | ⟨0, _⟩ => rfl | ⟨1, _⟩ => rfl)

/-- The right factor is the transpose at `(k, c)`, that is entry `(c, k)` of the array. -/
theorem right_index (r c : Fin 4096) (k : Fin 512) : idx_main_v5 (ridx_main_v6 (ix2 r c) k) = ix2 c k :=
  funext fun a => Fin.ext (by match a with | ⟨0, _⟩ => rfl | ⟨1, _⟩ => rfl)

/-- The weighted square the plain program forms at the pair `(r, c)` is the specified term of that pair. -/
theorem weighted_sq_eq_entry (x0 : (⟨S4096x512, .f32⟩ : BufTy).Contents (Elt Ideal))
    (x1 : (⟨S4096, .i32⟩ : BufTy).Contents (Elt Ideal)) (x2 : (⟨S1000x1000, .f32⟩ : BufTy).Contents (Elt Ideal))
    (r c : Fin 4096) :
    val_main_v35 (F := Ideal) x0 x1 x2 (ix2 r c)
      = entry (val_main_v4 (F := Ideal) x0) (val_main_v26 (F := Ideal) x1 x2) r c := by
  rw [val_main_v35_apply, val_main_v32_apply, val_main_v31_apply, val_main_v28_apply, val_main_v30_apply,
    val_main_v34_apply, val_main_v33_apply, val_main_v8_apply, val_main_v7_apply, val_main_cst_0_apply,
    val_main_v27_apply, val_main_v29_apply, val_main_cst_4_apply, val_main_cst_5_apply, val_main_v6_apply]
  simp only [val_main_v5_apply, left_index, right_index]
  generalize val_main_v4 (F := Ideal) x0 = X
  generalize val_main_v26 (F := Ideal) x1 x2 = D
  rfl

/-- The plain program's result, at its one index, is the specified mean of the normalised array and the table. -/
theorem result_eq_mean (x0 : (⟨S4096x512, .f32⟩ : BufTy).Contents (Elt Ideal))
    (x1 : (⟨S4096, .i32⟩ : BufTy).Contents (Elt Ideal)) (x2 : (⟨S1000x1000, .f32⟩ : BufTy).Contents (Elt Ideal))
    (i : S_.Idx) :
    val_main_v37 (F := Ideal) x0 x1 x2 i
      = mean (val_main_v4 (F := Ideal) x0) (val_main_v26 (F := Ideal) x1 x2) := by
  rw [val_main_v37_apply, val_main_v36_apply, val_main_cst_6_apply, val_main_cst_7_apply, sum_idx2]
  simp only [weighted_sq_eq_entry]
  generalize val_main_v4 (F := Ideal) x0 = X
  generalize val_main_v26 (F := Ideal) x1 x2 = D
  rfl

/-- The same as an equation of one-entry arrays. -/
theorem result_eq (x0 : (⟨S4096x512, .f32⟩ : BufTy).Contents (Elt Ideal))
    (x1 : (⟨S4096, .i32⟩ : BufTy).Contents (Elt Ideal)) (x2 : (⟨S1000x1000, .f32⟩ : BufTy).Contents (Elt Ideal)) :
    val_main_v37 (F := Ideal) x0 x1 x2
      = fun _ => mean (val_main_v4 (F := Ideal) x0) (val_main_v26 (F := Ideal) x1 x2) :=
  funext fun i => result_eq_mean x0 x1 x2 i

end Cert.MaskedSq.Ref

end
-- ==== Proof.Bridge.lean ====
/-
  The two idealized programs compute the same number.

  Both normalise the rows of the embedding matrix and look up the class distance of every pair of labels by the same
  host operations, so the kernel's region finds exactly the plain program's normalised matrix X (narrowing it to the
  matrix unit's input format changes nothing on the extended reals) and its table D. The plain program adds, over
  all 4096 × 4096 pairs (r, c), the term  mask(r, c) · (diff(r, c) · diff(r, c))  and divides by 2^24. The kernel
  walks the 8 × 8 grid of 512 × 512 tiles: at tile (i, j) it adds the tile's total of (mask · diff) · diff into
  entry (0, 0) of the 8 × 128 block of row-tile i, cleared at j = 0; the blocks are stacked into a 64 × 128 array of
  which only the entries (8·i, 0) are not zero, and the closing host lines add that array up and divide by 2^24.
  The two totals agree because multiplication on the extended reals is associative and a finite sum in a commutative
  monoid may be regrouped by tiles; no finiteness of the inputs is used.
-/
import proofs.«146862_j47442208751734_2_alg».proof.Defs
import proofs.«146862_j47442208751734_2_alg».proof.Proof.Gen.ReferenceIdeal.Run
import proofs.«146862_j47442208751734_2_alg».proof.Proof.Gen.ReferenceIdeal.Read
import proofs.«146862_j47442208751734_2_alg».proof.Proof.KiEnd
import proofs.«146862_j47442208751734_2_alg».proof.Proof.KiArray
import proofs.«146862_j47442208751734_2_alg».proof.Proof.RowAccum
import proofs.«146862_j47442208751734_2_alg».proof.Proof.SparseTotal
import proofs.«146862_j47442208751734_2_alg».proof.Proof.SpecBlocks
import proofs.«146862_j47442208751734_2_alg».proof.Proof.RefIsSpec
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.MaskedSq

variable (mI : (ℓ : Loc nD τ sig) → Buf (Elt Ideal) ℓ)

/-- The row-normalised matrix the region finds is the plain program's own normalised matrix of the same argument:
    the two programs compute it by the same host operations, and narrowing it to the matrix unit's input format is
    the identity on the extended reals. -/
theorem V_main_v5 (c : Dev nD) :
    @Eq (S4096x512.Idx → EReal) (V mI c main_v5)
      (Cert.ReferenceIdeal.Read.val_main_v4 (F := Ideal) (mI ((c : Thread nD τ).loc main_arg0))) := by
  dsimp only [V, V0]
  simp only [hostOps0, hostOps0_1, List.flatten_cons, List.flatten_nil, List.append_nil, List.cons_append, List.nil_append]
  after_results
  rfl

/-- The class distances the region finds are the plain program's own gathered table of the same arguments. -/
theorem V_main_v23 (c : Dev nD) :
    @Eq (S4096x4096.Idx → EReal) (V mI c main_v23)
      (Cert.ReferenceIdeal.Read.val_main_v26 (F := Ideal) (mI ((c : Thread nD τ).loc main_arg1)) (mI ((c : Thread nD τ).loc main_arg2))) := by
  dsimp only [V, V0]
  simp only [hostOps0, hostOps0_1, List.flatten_cons, List.flatten_nil, List.append_nil, List.cons_append, List.nil_append]
  after_results_simp
  unfold Cert.ReferenceIdeal.Read.val_main_v26 Cert.ReferenceIdeal.Read.val_main_v25 Cert.ReferenceIdeal.Read.val_main_v24 Cert.ReferenceIdeal.Read.val_main_v23
    Cert.ReferenceIdeal.Read.val_main_v22 Cert.ReferenceIdeal.Read.val_main_v21 Cert.ReferenceIdeal.Read.val_main_v20 Cert.ReferenceIdeal.Read.val_main_v19
    Cert.ReferenceIdeal.Read.val_main_v18 Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_c Cert.ReferenceIdeal.Read.val_main_c_1
    Cert.ReferenceIdeal.Read.val_main_c_2 Cert.ReferenceIdeal.Read.val_main_c_3
  rfl

/-- The result array as the grid leaves it: zero except at the entries (8·i, 0), which hold row-tile i's total. -/
theorem result_array_apply (c : Dev nD) (X : S4096x512.Idx → EReal) (D : S4096x4096.Idx → EReal)
    (hX : @Eq (S4096x512.Idx → EReal) (V mI c main_v5) X) (hD : @Eq (S4096x4096.Idx → EReal) (V mI c main_v23) D)
    (i a : Fin 8) (b : Fin 128) :
    ((dats mI 0 c).arrAt 3 cfg0.N : S64x128.Idx → EReal) (ix2 (⟨8 * i.val + a.val, by omega⟩ : Fin 64) b)
      = if a.val = 0 ∧ b.val = 0 then ∑ j : Fin 8, ∑ p : Fin 512, ∑ q : Fin 512, entry X D (blk i p) (blk j q) else 0 := by
  subst hX; subst hD
  rw [arrAt3_apply mI c i a b]
  exact Cert.MaskedSq.Acc.outsAt_row_end_V mI c i a b _

/-- The kernel's scalar: the total of that array from the zero word, divided by 2^24, is the specified mean. -/
theorem kernel_value (c : Dev nD) (idx : S_.Idx) :
    (Host.divf (Host.reduceAdd (show FVec Ideal S64x128 .f32 from (dats mI 0 c).arrAt 3 cfg0.N) (constant S_ .f32 0x00000000#32) reducesTo_S64x128_S_d0_1 h_S_)
        (constant S_ .f32 0x4B800000#32) : S_.Idx → EReal) idx
      = mean (Cert.ReferenceIdeal.Read.val_main_v4 (F := Ideal) (mI ((c : Thread nD τ).loc main_arg0)))
          (Cert.ReferenceIdeal.Read.val_main_v26 (F := Ideal) (mI ((c : Thread nD τ).loc main_arg1)) (mI ((c : Thread nD τ).loc main_arg2))) := by
  generalize hXe : Cert.ReferenceIdeal.Read.val_main_v4 (F := Ideal) (mI ((c : Thread nD τ).loc main_arg0)) = X
  generalize hDe : Cert.ReferenceIdeal.Read.val_main_v26 (F := Ideal) (mI ((c : Thread nD τ).loc main_arg1)) (mI ((c : Thread nD τ).loc main_arg2)) = D
  have hX : @Eq (S4096x512.Idx → EReal) (V mI c main_v5) X := (V_main_v5 mI c).trans hXe
  have hD : @Eq (S4096x4096.Idx → EReal) (V mI c main_v23) D := (V_main_v23 mI c).trans hDe
  show FloatOps.hostDivf ((Host.reduceAdd (show FVec Ideal S64x128 .f32 from (dats mI 0 c).arrAt 3 cfg0.N) (constant S_ .f32 0x00000000#32) reducesTo_S64x128_S_d0_1 h_S_) idx)
      ((constant (F := Ideal) S_ .f32 0x4B800000#32) idx) = _
  simp only [Host.reduceAdd, Ideal.hostReduceAdd_def]
  rw [Ideal.hostReduceAdd_total reducesTo_S64x128_S_d0_1 (fun b => b.elim0) _ _ idx]
  have hsum := zero_add_sum_corners ((dats mI 0 c).arrAt 3 cfg0.N : S64x128.Idx → EReal)
    (fun i => ∑ j : Fin 8, ∑ p : Fin 512, ∑ q : Fin 512, entry X D (blk i p) (blk j q))
    (fun i a b => result_array_apply mI c X D hX hD i a b)
  rw [← total_blocks] at hsum
  unfold mean
  exact congrArg (fun s => Ideal.div s (Ideal.ofBits .f32 0x4B800000#32)) hsum

end Cert.KernelIdeal.Hand

end
-- ==== Proof.lean ====
/-
  A pairwise semantic-similarity loss: for 4096 embeddings with labels, the mean over all ordered pairs (r, c) of
      mask(r, c) · (d_emb(r, c) − d_cls(r, c))²,
  where d_emb = 1 − ⟨x_r, x_c⟩ on rows normalised by the larger of their Euclidean norm and a small constant, d_cls is
  the class-distance table at the pair's labels, and mask is 1 when both distances are below the margin.

  The plain program forms the whole 4096 × 4096 matrix of terms and averages it. The kernel tiles the pairs into an
  8 × 8 grid of 512 × 512 tiles, adds each tile's total into one entry per row of tiles, and the host adds those eight
  entries (padded with zeros to a 64 × 128 array) and divides by the number of pairs.

  Five claims. The three programs each run to the end without a fault and leave their arguments unchanged: for the
  kernel (at the word level and at the extended reals) this is the launch of a region two of whose windows read one
  array, followed by host lines (KwEnd, KiEnd); for the plain program it is its straight-line run. The idealization
  rewrote no operation, so it preserves the kernel trivially. And on the extended reals the two results are equal
  (Bridge): the region finds the plain program's own normalised matrix and table, every tile total is the plain
  program's terms of that tile by associativity of the product, and the sum over all pairs is the sum over tiles of
  the tiles' sums. No finiteness of the inputs is used.
-/
import proofs.«146862_j47442208751734_2_alg».proof.Defs
import proofs.«146862_j47442208751734_2_alg».proof.Proof.Gen.Kernel
import proofs.«146862_j47442208751734_2_alg».proof.Proof.Gen.Kernel.Skeleton
import proofs.«146862_j47442208751734_2_alg».proof.Proof.Gen.Kernel.Launch
import proofs.«146862_j47442208751734_2_alg».proof.Proof.Gen.Kernel.Points
import proofs.«146862_j47442208751734_2_alg».proof.Proof.Gen.KernelIdeal
import proofs.«146862_j47442208751734_2_alg».proof.Proof.Gen.KernelIdeal.Skeleton
import proofs.«146862_j47442208751734_2_alg».proof.Proof.Gen.KernelIdeal.Launch
import proofs.«146862_j47442208751734_2_alg».proof.Proof.Gen.KernelIdeal.Points
import proofs.«146862_j47442208751734_2_alg».proof.Proof.Gen.ReferenceIdeal
import proofs.«146862_j47442208751734_2_alg».proof.Proof.Gen.Pre_finite_inputs
import proofs.«146862_j47442208751734_2_alg».proof.Proof.Gen.ReferenceIdeal.Run
import proofs.«146862_j47442208751734_2_alg».proof.Proof.Gen.ReferenceIdeal.Read
import proofs.«146862_j47442208751734_2_alg».proof.Proof.KwEnd
import proofs.«146862_j47442208751734_2_alg».proof.Proof.KiEnd
import proofs.«146862_j47442208751734_2_alg».proof.Proof.Bridge
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel := fun m ρ _ => Cert.Kernel.Hand.frame (F := Bits) m ρ

/-- So does the kernel read at the extended reals. -/
theorem frame_kernelIdeal : Cert.frame_KernelIdeal := fun m ρ _ => Cert.KernelIdeal.Hand.frame (F := Ideal) m ρ

/-- And the plain program: its straight-line run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals, from memories that agree on the arguments, both programs end at the specified mean of the
    normalised matrix and the class-distance table of those arguments. -/
theorem algebraic : Cert.algebraic_KernelIdeal_ReferenceIdeal := by
  intro m ρ m' ρ' _ hagree
  refine ⟨fun c => fun _ => Cert.MaskedSq.mean
      (Cert.ReferenceIdeal.Read.val_main_v4 (F := Ideal) (m ((c.tc : Thread Cert.KernelIdeal.nD Cert.KernelIdeal.τ).loc Cert.KernelIdeal.main_arg0)))
      (Cert.ReferenceIdeal.Read.val_main_v26 (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2))), ?_, ?_⟩
  · exact (θ_run Cert.KernelIdeal.defs _ _).mono
      (fun _ h c => ⟨(h c).1.trans (funext fun idx => Cert.KernelIdeal.Hand.kernel_value m c idx), (h c).2⟩)
      (Cert.KernelIdeal.Hand.result_run (F := Ideal) m ρ)
  · exact (θ_run Cert.ReferenceIdeal.defs _ _).mono
      (fun _ h c => ⟨by
        rw [(h c).1, Cert.ReferenceIdeal.Read.val_main_v37_eq, Cert.MaskedSq.Ref.result_eq, (hagree c).1, (hagree c).2.1, (hagree c).2.2]
        rfl,
        (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
